-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S128x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S10000x64 : Shape := ⟨2, ![10000, 64]⟩
abbrev S400x10000 : Shape := ⟨2, ![400, 10000]⟩
abbrev S400x16 : Shape := ⟨2, ![400, 16]⟩
abbrev S400x64 : Shape := ⟨2, ![400, 64]⟩
abbrev S400x128 : Shape := ⟨2, ![400, 128]⟩
abbrev S1x64 : Shape := ⟨2, ![1, 64]⟩
abbrev S1000x10000 : Shape := ⟨2, ![1000, 10000]⟩
abbrev S1000x64 : Shape := ⟨2, ![1000, 64]⟩
abbrev S1000 : Shape := ⟨1, ![1000]⟩
abbrev S1000x1 : Shape := ⟨2, ![1000, 1]⟩

abbrev nBuf : Space → Nat
  | .hbm => 17
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S10000x128, .bf16⟩
  | .hbm, ⟨9, _⟩ => ⟨S128x128, .bf16⟩
  | .hbm, ⟨10, _⟩ => ⟨S1x128, .f32⟩
  | .hbm, ⟨11, _⟩ => ⟨S1x16, .f32⟩
  | .hbm, ⟨12, _⟩ => ⟨S10000x16, .f32⟩
  | .hbm, ⟨13, _⟩ => ⟨S10000x64, .bf16⟩
  | .hbm, ⟨14, _⟩ => ⟨S10000x10000, .bf16⟩
  | .hbm, ⟨15, _⟩ => ⟨S1x64, .f32⟩
  | .hbm, ⟨16, _⟩ => ⟨S10000x64, .f32⟩
  | .local _ .vmem, ⟨0, _⟩ => ⟨S10000x128, .bf16⟩
  | .local _ .vmem, ⟨1, _⟩ => ⟨S400x10000, .f32⟩
  | .local _ .vmem, ⟨2, _⟩ => ⟨S400x10000, .f32⟩
  | .local _ .vmem, ⟨3, _⟩ => ⟨S128x128, .bf16⟩
  | .local _ .vmem, ⟨4, _⟩ => ⟨S1x128, .f32⟩
  | .local _ .vmem, ⟨5, _⟩ => ⟨S128x64, .f32⟩
  | .local _ .vmem, ⟨6, _⟩ => ⟨S128x16, .f32⟩
  | .local _ .vmem, ⟨7, _⟩ => ⟨S1x16, .f32⟩
  | .local _ .vmem, ⟨8, _⟩ => ⟨S400x16, .f32⟩
  | .local _ .vmem, ⟨9, _⟩ => ⟨S400x16, .f32⟩
  | .local _ .vmem, ⟨10, _⟩ => ⟨S400x64, .bf16⟩
  | .local _ .vmem, ⟨11, _⟩ => ⟨S400x64, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1000x10000, .bf16⟩
  | .local _ .vmem, ⟨16, _⟩ => ⟨S1000x10000, .bf16⟩
  | .local _ .vmem, ⟨17, _⟩ => ⟨S10000x64, .bf16⟩
  | .local _ .vmem, ⟨18, _⟩ => ⟨S1x64, .f32⟩
  | .local _ .vmem, ⟨19, _⟩ => ⟨S1000x64, .f32⟩
  | .local _ .vmem, ⟨20, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x10000 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S128_S1x128 : S128.ShapeCasts S1x128
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  packedbf16_S400x10000_S400x10000_0_0 : (Rect.unit (s := S400x10000) ![0, 0] S400x10000.size inb_S400x10000_S400x10000_0_0).PackedRows (EltTy.packing .bf16)
  shapeCasts_S64_S1x64 : S64.ShapeCasts S1x64
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x128_S128x64_S400x64_1_0_0_1_n_n_wf : DotDims.WF S400x128 S128x64 S400x64 [1] [0] [0] [1] [] []
  dot_S1000x10000_S10000x64_S1000x64_1_0_0_1_n_n_wf : DotDims.WF S1000x10000 S10000x64 S1000x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .f32 = 32 ∨ (Rect.block (s := S128x16) S128x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x16.size a ≤ S10000x16.size a
  hwx0_7 : ∀ i : grid0.Coords, EltTy.bits .f32 = 32 ∨ (Rect.block (s := S10000x16) S400x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x64.size a ≤ S10000x64.size a
  hwx0_8 : ∀ i : grid0.Coords, EltTy.bits .bf16 = 32 ∨ (Rect.block (s := S10000x64) S400x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x10000.size a ≤ S10000x10000.size a
  hwx0_9 : ∀ i : grid0.Coords, EltTy.bits .bf16 = 32 ∨ (Rect.block (s := S10000x10000) S400x10000.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S10000x64.size a
  hwx1_3 : ∀ i : grid1.Coords, EltTy.bits .f32 = 32 ∨ (Rect.block (s := S10000x64) S1000x64.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S400x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S400x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S400x10000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_2) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x16, .f32⟩
  | .hbm, ⟨22, _⟩ => ⟨S1x16, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x64, .f32⟩
  | .hbm, ⟨39, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x128_S128x16_S10000x16_1_0_0_1_n_n_wf : DotDims.WF S10000x128 S128x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

class Facts : Prop extends Facts₀ where

variable [Facts]
-- ==== Proof.K.Runs0.lean ====
/-
  The first pallas_call (the hidden layer, the encoder head, the second-layer support and the bf16 copy of the
  adjacency) — its body run once in each of its two control cases.

  At the first point of the grid the body first fills its scratch with x · W1, then (at every point) loads a
  [400,10000] row block of the adjacency and the scratch, and stores three blocks: the head's, the support's and
  the adjacency copy's.  Each case's run yields, for each stored buffer, the list of pieces its stores wrote.
-/
import proofs.«134555_g86887188398703_cont_sun_m_546_22_alg».proof.Proof.Gen.Kernel.Launch
import proofs.«134555_g86887188398703_cont_sun_m_546_22_alg».proof.Proof.Gen.Kernel.Skeleton
import proofs.«134555_g86887188398703_cont_sun_m_546_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The body's one branch condition: "this is the first grid point". -/
abbrev cond0 (i : grid0.Coords) : Prop :=
  (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- THE FIRST POINT. The inputs' buffers at known contents, the outputs' and the scratch at anything: the body runs
    to the continuation with the inputs as they were and each output and the scratch with its pieces written. -/
noncomputable def kernelRun0_A (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i)
    (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    Σ' (L7 : List (View.Piece (Elt F) S400x16 .f32)) (L8 : List (View.Piece (Elt F) S400x64 .bf16)) (L9 : List (View.Piece (Elt F) S400x10000 .bf16)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0__pass1_body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

set_option maxHeartbeats 4000000 in
/-- A LATER POINT. As before, but the scratch is at known contents `xs` and comes back untouched. -/
noncomputable def kernelRun0_B (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i)
    (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) :
    Σ' (L7 : List (View.Piece (Elt F) S400x16 .f32)) (L8 : List (View.Piece (Elt F) S400x64 .bf16)), { L9 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0__pass1_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg11.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; isplitr; · ipureintro; exact harg11.read_unread _
    iexact HS

end Cert.Kernel.Hand

end
-- ==== Proof.K.Region0.lean ====
/-
  The first pallas_call at a generic point of its grid of twenty-five row blocks: what each window's staging
  buffer holds when the body is called, what the body leaves in the three output buffers and in the scratch, and
  the body's triple at every point.

  The scratch is filled with x · W1 at the first point and only read afterwards, so from the second point on the
  region's invariant holds it at the first point's contents; the three output blocks are stored whole at every
  point, so nothing is read back from them.
-/
import proofs.«134555_g86887188398703_cont_sun_m_546_22_alg».proof.Proof.K.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether that point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the scratch. -/
abbrev ms0_0 (t : Fin cfg0.N) : Memref sig .tc .vmem S10000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x10000 .bf16 := win0_9.stage (cfg0.slots t 9)
abbrev hs0_9 (t : Fin cfg0.N) : (ms0_9 t).IsWhole := hstage0_9 ((cfg0.slots t 9).cast nbuf0_9)
abbrev scM0 : Memref sig .tc .vmem S10000x128 .bf16 := Memref.whole cc0_scratch0

/-- One buffer of each stored shape, through which the stored contents are stated (the choice does not matter). -/
abbrev VO0_7 : View sig .tc .vmem S400x16 .f32 := (Memref.whole cc0_stg7_0 : Memref sig .tc .vmem S400x16 .f32).view
abbrev VO0_8 : View sig .tc .vmem S400x64 .bf16 := (Memref.whole cc0_stg8_0 : Memref sig .tc .vmem S400x64 .bf16).view
abbrev VO0_9 : View sig .tc .vmem S400x10000 .bf16 := (Memref.whole cc0_stg9_0 : Memref sig .tc .vmem S400x10000 .bf16).view
abbrev VS0 : View sig .tc .vmem S10000x128 .bf16 := scM0.view

/-! ## What the first point's stores leave -/

/-- Each stored buffer's pieces at the first point tile it, so they cover it. -/
theorem cover0_A_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x16.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).1 S400x16.size (by sl_kernel_rfl) y
theorem cover0_A_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1 S400x64.size (by sl_kernel_rfl) y
theorem cover0_A_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x10000.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1 S400x10000.size (by sl_kernel_rfl) y
theorem cover0_A_S (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S10000x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1 S10000x128.size (by sl_kernel_rfl) y

/-- What the first point leaves in each stored buffer: its pieces read back. -/
def out0_A_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x16 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).1)
def out0_A_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x64 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1)
def out0_A_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x10000 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1)
def out0_A_S (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S10000x128 .bf16 :=
  VS0.read (Elt F) (VS0.writes (Elt F) VS0.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1)

/-! ## What a later point's stores leave -/

theorem cover0_B_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x16.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1 S400x16.size (by sl_kernel_rfl) y
theorem cover0_B_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1 S400x64.size (by sl_kernel_rfl) y
theorem cover0_B_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x10000.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1 S400x10000.size (by sl_kernel_rfl) y

def out0_B_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x16 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1)
def out0_B_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x64 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1)
def out0_B_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x10000 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1)

/-! ## Point by point -/

/-- The first grid point. -/
def t00 : Fin cfg0.N := ⟨0, by rw [show cfg0.N = 25 from N_0]; decide⟩

/-- What the scratch holds from the first point on: what the first point's store left. -/
def scr0 (c : Dev nD) : Vec F S10000x128 .bf16 :=
  out0_A_S c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) (ms0_8 t00) (hs0_8 t00) (ms0_9 t00) (hs0_9 t00) scM0 (Memref.isWhole_whole _) ((hcond0 t00).mpr rfl) (iblk0 V c 0 t00) (iblk0 V c 1 t00) (iblk0 V c 2 t00) (iblk0 V c 3 t00) (iblk0 V c 4 t00) (iblk0 V c 5 t00) (iblk0 V c 6 t00)

/-- What the three output buffers hold after the body at point `t`. -/
def outs0 (c : Dev nD) (t : Fin cfg0.N) : Vec F S400x16 .f32 × Vec F S400x64 .bf16 × Vec F S400x10000 .bf16 :=
  if h : t.val = 0 then
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t))
  else
    (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c))

theorem outs0_A (c : Dev nD) (t : Fin cfg0.N) (h : t.val = 0) : outs0 V c t =
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t)) := dif_pos h
theorem outs0_B (c : Dev nD) (t : Fin cfg0.N) (h : ¬t.val = 0) : outs0 V c t =
    (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c)) := dif_neg h

/-- The second call's staging buffers, which this call never touches: each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the scratch as a buffer owned at some contents. -/
theorem PhiA0_eq (c : Dev nD) :
    (Pipeline.ΦA spec0 c : sProp 𝕄)
      = iprop(iprop((∃ d, owns (c : Thread nD τ) scM0 fullShare d) ∗ restB (F := F) c) ∗ (∃ r, prngReg c r)) := by
  unfold Pipeline.ΦA restB; rw [scopedRest0_eq]; simp only [scM0, owns_whole]; try rfl

/-- The region's invariant before position `n`: before the first point the class's (the scratch at anything);
    afterwards the scratch at what the first point left, the rest as before. -/
def Phi0 (c : Dev nD) : ℕ → sProp 𝕄
  | 0 => Pipeline.ΦA spec0 c
  | _ + 1 => iprop(iprop(owns (c : Thread nD τ) scM0 fullShare (scr0 V c) ∗ restB (F := F) c) ∗ (∃ r, prngReg c r))

theorem Phi0_pos (c : Dev nD) (n : ℕ) (hz : n ≠ 0) :
    Phi0 V c n = iprop(iprop(owns (c : Thread nD τ) scM0 fullShare (scr0 V c) ∗ restB (F := F) c) ∗ (∃ r, prngReg c r)) := by
  cases n with
  | zero => exact absurd rfl hz
  | succ n => rfl

/-! ## The call's proof data -/

/-- The first call's proof data on core `c`: the arrays as the call finds them; after the body at point `t` each
    input's buffer at its block and the outputs' at `outs0`; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outs0 V c t).1
    | ⟨8, _⟩ => (outs0 V c t).2.1
    | ⟨9, _⟩ => (outs0 V c t).2.2
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outs0 V c t).1 := by dsimp only [dat0]
theorem after0_8 (c : Dev nD) (t : Fin cfg0.N) : (dat0 V c).after 8 t = (outs0 V c t).2.1 := by dsimp only [dat0]
theorem after0_9 (c : Dev nD) (t : Fin cfg0.N) : (dat0 V c).after 9 t = (outs0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Phi0_castSucc (c : Dev nD) (t : Fin cfg0.N) : (dat0 V c).Φ t.castSucc = Phi0 V c t.val := by
  dsimp only [dat0]; simp only [Fin.coe_castSucc]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' buffers hold their blocks; at the first point the invariant hands over the
    scratch at anything and takes it back at what the point stored; at a later point it hands it over at the first
    point's contents and takes it back untouched; what the core owes passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) from rfl, Phi0_pos V c (t.val + 1) (Nat.succ_ne_zero _)]
  rw [after0_0, after0_1, after0_2, after0_3, after0_4, after0_5, after0_6, after0_7, after0_8, after0_9, Phi0_castSucc]
  by_cases hz : t.val = 0
  · obtain rfl : t = t00 := Fin.ext hz
    rw [outs0_A V c t00 hz, show Phi0 V c t00.val = Pipeline.ΦA spec0 c from rfl, PhiA0_eq]
    unfold scr0 out0_A_7 out0_A_8 out0_A_9 out0_A_S; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) (ms0_8 t00) (hs0_8 t00) (ms0_9 t00) (hs0_9 t00) scM0 (Memref.isWhole_whole _) ((hcond0 t00).mpr hz) (iblk0 V c 0 t00) (iblk0 V c 1 t00) (iblk0 V c 2 t00) (iblk0 V c 3 t00) (iblk0 V c 4 t00) (iblk0 V c 5 t00) (iblk0 V c 6 t00)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, ⟨%es, HS⟩⟩
    isplitl [HS HR Hg]
    · isplitl [HS HR]
      · isplitl [HS]
        · unfold owns; iexists _; isplitr
          swap; · iexact HS
          ipureintro; exact View.read_writes_of_cover _ _ _ _ _ (cover0_A_S c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outs0_B V c t hz, Phi0_pos V c t.val hz]
    unfold out0_B_7 out0_B_8 out0_B_9; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => hz ((hcond0 t).mp hh)) (iblk0 V c 0 t) (iblk0 V c 1 t) (iblk0 V c 2 t) (iblk0 V c 3 t) (iblk0 V c 4 t) (iblk0 V c 5 t) (iblk0 V c 6 t) (scr0 V c)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.Kernel.Hand

end
-- ==== Proof.K.Region1.lean ====
/-
  The second pallas_call (the log-softmax pass) at a generic point of its grid of ten row blocks.

  Its body reads three staged blocks — a [1000,10000] row block of the adjacency copy, the whole [10000,64]
  second-layer support and the [1,64] bias row — and stores one [1000,64] block: the shifted logits minus the
  logarithm of the row sum of their exponentials.  Here: what each window's staging buffer holds when the body
  is called (the block of the array the call found), what the body leaves in the output's buffer as one value of
  the three input blocks, and the body's triple at every point.
-/
import proofs.«134555_g86887188398703_cont_sun_m_546_22_alg».proof.Proof.Gen.Kernel.Launch
import proofs.«134555_g86887188398703_cont_sun_m_546_22_alg».proof.Proof.Gen.Kernel.Skeleton
import proofs.«134555_g86887188398703_cont_sun_m_546_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_adj : Rect S1000x10000 := Rect.unit (s := S1000x10000) ![0, 0] S1000x10000.size inb_S1000x10000_S1000x10000_0_0
abbrev r1_s2 : Rect S10000x64 := Rect.unit (s := S10000x64) ![0, 0] S10000x64.size inb_S10000x64_S10000x64_0_0
abbrev r1_b2 : Rect S1x64 := Rect.unit (s := S1x64) ![0, 0] S1x64.size inb_S1x64_S1x64_0_0
abbrev r1_out : Rect S1000x64 := Rect.unit (s := S1000x64) ![0, 0] S1000x64.size inb_S1000x64_S1000x64_0_0

/-- What the body leaves in the output window's buffer, from the three input blocks: its one store. -/
def out1_3 (x0 : Vec F S1000x10000 .bf16) (x1 : Vec F S10000x64 .bf16) (x2 : Vec F S1x64 .f32) : Vec F S1000x64 .f32 :=
  View.canon [⟨r1_out, k1_pay1 (View.ld x0 r1_adj) (View.ld x1 r1_s2) (View.ld x2 r1_b2)⟩]

/-- The one store covers the buffer. -/
theorem cover1_3 (p0 : Vec F S1000x64 .f32) (y : S1000x64.Idx) :
    ∃ pc ∈ ([⟨r1_out, p0⟩] : List (View.Piece (Elt F) S1000x64 .f32)), y ∈ pc.1.set :=
  View.cover_of_tiled [⟨r1_out, p0⟩] S1000x64.size (by rfl) y

set_option maxHeartbeats 1000000 in
/-- The body on whole staging buffers, the inputs' at known contents and the output's at anything, runs to the
    continuation with the inputs as they were and the output at `out1_3` of them. -/
theorem sound_kernel1 (c : Dev nD) (E : Set ℕ) (i : grid1.Coords) (arg1 : Memref sig .tc .vmem S1000x10000 .bf16) (harg1 : arg1.IsWhole)
    (arg2 : Memref sig .tc .vmem S10000x64 .bf16) (harg2 : arg2.IsWhole) (arg3 : Memref sig .tc .vmem S1x64 .f32) (harg3 : arg3.IsWhole)
    (arg4 : Memref sig .tc .vmem S1000x64 .f32) (harg4 : arg4.IsWhole)
    (x0 : Vec F S1000x10000 .bf16) (x1 : Vec F S10000x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_body i arg1 harg1 arg2 harg2 arg3 harg3 arg4 harg4) K := by
  simp only [cc1__pass2_body_eq_skeleton]; unfold cc1__pass2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The call's proof data on core `c`: the arrays as the call finds them; after the body at point `t` each input's
    buffer at its block and the output's at `out1_3` of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program as a run: the four host operations before the first pallas_call, that call, the one host
  operation between, the second call — every unscoped buffer followed from the launch memory to the return.

  Between two items a core holds every unscoped buffer at named contents: the launch memory; after the first host
  stretch; after the first call (its three result arrays at what its write-backs leave, everything else as it
  was); after the second stretch; after the second call.  The run ends with every unscoped buffer at the last of
  these, from which the argument arrays are read back unchanged and the two results are read as what the calls'
  write-backs leave.
-/
import proofs.«134555_g86887188398703_cont_sun_m_546_22_alg».proof.Proof.K.Region0
import proofs.«134555_g86887188398703_cont_sun_m_546_22_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffer contents at each boundary -/

/-- Core `c`'s buffers at launch. -/
abbrev WW0 : Dev nD → Valuation τ sig (Elt F) := fun c b => (s₀ m ρ).mem ((c : Dev nD), b)
/-- After the first host stretch (the first call's entry). -/
abbrev WW1 : Dev nD → Valuation τ sig (Elt F) := fun c => StableHlo.after hostOps0 (WW0 m ρ c)
abbrev VV1 : (c : Dev nD) → (b : Ref sig .tc) → Buf (Elt F) ((c : Thread nD τ).loc b) := fun c b => WW1 m ρ c b
/-- At the first call's exit: its arrays at what the pipeline leaves, every other buffer as entered. -/
def WW2 (c : Dev nD) : Valuation τ sig (Elt F) :=
  Pipeline.withArrays spec0 c (WW1 m ρ c) fun w => (dat0 (VV1 m ρ) c).arrAt w cfg0.N
theorem WW2_arr (c : Dev nD) (w : Fin cfg0.W) :
    WW2 m ρ c (Proc.devRef .tc (Pipeline.arrRef spec0 w)) = (dat0 (VV1 m ρ) c).arrAt w cfg0.N := by
  unfold WW2; exact Pipeline.withArrays_arr spec0 launch0.win.arr_inj c _ _ w
theorem WW2_of_ne (c : Dev nD) (b : Ref sig .tc) (hb : ∀ w, Pipeline.arrRef spec0 w ≠ b) :
    WW2 m ρ c (Proc.devRef .tc b) = WW1 m ρ c (Proc.devRef .tc b) := by
  unfold WW2; exact Pipeline.withArrays_of_ne spec0 c _ _ b hb
abbrev VV2 : (c : Dev nD) → (b : Ref sig .tc) → Buf (Elt F) ((c : Thread nD τ).loc b) := fun c b => WW2 m ρ c b
theorem hF0 (c : Dev nD) (w : Fin cfg0.W) : (dat0 (VV1 m ρ) c).arrAt w cfg0.N = VV2 m ρ c (Pipeline.arrRef spec0 w) :=
  (WW2_arr m ρ c w).symm
theorem hrest0 (c : Dev nD) : ∀ b, b ∉ Finset.univ.image (Pipeline.arrRef spec0) → VV2 m ρ c b = VV1 m ρ c b :=
  fun b hb => WW2_of_ne m ρ c b fun w e => hb (Finset.mem_image.mpr ⟨w, Finset.mem_univ _, e⟩)

/-- After the second host stretch (the second call's entry). -/
abbrev WW3 : Dev nD → Valuation τ sig (Elt F) := fun c => StableHlo.after hostOps1 (WW2 m ρ c)
abbrev VV3 : (c : Dev nD) → (b : Ref sig .tc) → Buf (Elt F) ((c : Thread nD τ).loc b) := fun c b => WW3 m ρ c b
/-- At the second call's exit. -/
def WW4 (c : Dev nD) : Valuation τ sig (Elt F) :=
  Pipeline.withArrays spec1 c (WW3 m ρ c) fun w => (dat1 (VV3 m ρ) c).arrAt w cfg1.N
theorem WW4_arr (c : Dev nD) (w : Fin cfg1.W) :
    WW4 m ρ c (Proc.devRef .tc (Pipeline.arrRef spec1 w)) = (dat1 (VV3 m ρ) c).arrAt w cfg1.N := by
  unfold WW4; exact Pipeline.withArrays_arr spec1 launch1.win.arr_inj c _ _ w
theorem WW4_of_ne (c : Dev nD) (b : Ref sig .tc) (hb : ∀ w, Pipeline.arrRef spec1 w ≠ b) :
    WW4 m ρ c (Proc.devRef .tc b) = WW3 m ρ c (Proc.devRef .tc b) := by
  unfold WW4; exact Pipeline.withArrays_of_ne spec1 c _ _ b hb
abbrev VV4 : (c : Dev nD) → (b : Ref sig .tc) → Buf (Elt F) ((c : Thread nD τ).loc b) := fun c b => WW4 m ρ c b
theorem hF1 (c : Dev nD) (w : Fin cfg1.W) : (dat1 (VV3 m ρ) c).arrAt w cfg1.N = VV4 m ρ c (Pipeline.arrRef spec1 w) :=
  (WW4_arr m ρ c w).symm
theorem hrest1 (c : Dev nD) : ∀ b, b ∉ Finset.univ.image (Pipeline.arrRef spec1) → VV4 m ρ c b = VV3 m ρ c b :=
  fun b hb => WW4_of_ne m ρ c b fun w e => hb (Finset.mem_image.mpr ⟨w, Finset.mem_univ _, e⟩)

/-! ### The arguments end as launched: no host operation writes one, and a call either reads it through an input
    window or does not touch it -/

theorem WW4_main_arg0 (c : Dev nD) : WW4 m ρ c (Proc.devRef .tc main_arg0) = m ((c : Thread nD τ).loc main_arg0) :=
  calc WW4 m ρ c (Proc.devRef .tc main_arg0)
    _ = WW3 m ρ c (Proc.devRef .tc main_arg0) := WW4_of_ne m ρ c main_arg0 (by decide)
    _ = WW2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg0) := WW2_of_ne m ρ c main_arg0 (by decide)
    _ = WW0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem WW4_main_arg1 (c : Dev nD) : WW4 m ρ c (Proc.devRef .tc main_arg1) = m ((c : Thread nD τ).loc main_arg1) :=
  calc WW4 m ρ c (Proc.devRef .tc main_arg1)
    _ = WW3 m ρ c (Proc.devRef .tc main_arg1) := WW4_of_ne m ρ c main_arg1 (by decide)
    _ = WW2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg1) := (WW2_arr m ρ c 1).trans (((dat0 (VV1 m ρ) c).arrAt_in 1 rfl _).trans (A_eq0 (VV1 m ρ) c 1))
    _ = WW0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem WW4_main_arg2 (c : Dev nD) : WW4 m ρ c (Proc.devRef .tc main_arg2) = m ((c : Thread nD τ).loc main_arg2) :=
  calc WW4 m ρ c (Proc.devRef .tc main_arg2)
    _ = WW3 m ρ c (Proc.devRef .tc main_arg2) := WW4_of_ne m ρ c main_arg2 (by decide)
    _ = WW2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg2) := WW2_of_ne m ρ c main_arg2 (by decide)
    _ = WW0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem WW4_main_arg3 (c : Dev nD) : WW4 m ρ c (Proc.devRef .tc main_arg3) = m ((c : Thread nD τ).loc main_arg3) :=
  calc WW4 m ρ c (Proc.devRef .tc main_arg3)
    _ = WW3 m ρ c (Proc.devRef .tc main_arg3) := WW4_of_ne m ρ c main_arg3 (by decide)
    _ = WW2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg3) := WW2_of_ne m ρ c main_arg3 (by decide)
    _ = WW0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem WW4_main_arg4 (c : Dev nD) : WW4 m ρ c (Proc.devRef .tc main_arg4) = m ((c : Thread nD τ).loc main_arg4) :=
  calc WW4 m ρ c (Proc.devRef .tc main_arg4)
    _ = WW3 m ρ c (Proc.devRef .tc main_arg4) := WW4_of_ne m ρ c main_arg4 (by decide)
    _ = WW2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg4) := (WW2_arr m ρ c 4).trans (((dat0 (VV1 m ρ) c).arrAt_in 4 rfl _).trans (A_eq0 (VV1 m ρ) c 4))
    _ = WW0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem WW4_main_arg5 (c : Dev nD) : WW4 m ρ c (Proc.devRef .tc main_arg5) = m ((c : Thread nD τ).loc main_arg5) :=
  calc WW4 m ρ c (Proc.devRef .tc main_arg5)
    _ = WW3 m ρ c (Proc.devRef .tc main_arg5) := WW4_of_ne m ρ c main_arg5 (by decide)
    _ = WW2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg5) := WW2_of_ne m ρ c main_arg5 (by decide)
    _ = WW0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem WW4_main_arg6 (c : Dev nD) : WW4 m ρ c (Proc.devRef .tc main_arg6) = m ((c : Thread nD τ).loc main_arg6) :=
  calc WW4 m ρ c (Proc.devRef .tc main_arg6)
    _ = WW3 m ρ c (Proc.devRef .tc main_arg6) := WW4_of_ne m ρ c main_arg6 (by decide)
    _ = WW2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg6) := (WW2_arr m ρ c 5).trans (((dat0 (VV1 m ρ) c).arrAt_in 5 rfl _).trans (A_eq0 (VV1 m ρ) c 5))
    _ = WW0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem WW4_main_arg7 (c : Dev nD) : WW4 m ρ c (Proc.devRef .tc main_arg7) = m ((c : Thread nD τ).loc main_arg7) :=
  calc WW4 m ρ c (Proc.devRef .tc main_arg7)
    _ = WW3 m ρ c (Proc.devRef .tc main_arg7) := WW4_of_ne m ρ c main_arg7 (by decide)
    _ = WW2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg7) := WW2_of_ne m ρ c main_arg7 (by decide)
    _ = WW0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ### The two results are what the calls' write-backs leave -/

/-- The first result (the log-softmax) is the second call's output array. -/
theorem WW4_main_v6 (c : Dev nD) : WW4 m ρ c (Proc.devRef .tc main_v6) = (dat1 (VV3 m ρ) c).arrAt 3 cfg1.N :=
  WW4_arr m ρ c 3
/-- The second result (the encoder head) is the first call's first output array, untouched afterwards. -/
theorem WW4_main_v4_0 (c : Dev nD) : WW4 m ρ c (Proc.devRef .tc main_v4_0) = (dat0 (VV1 m ρ) c).arrAt 7 cfg0.N :=
  calc WW4 m ρ c (Proc.devRef .tc main_v4_0)
    _ = WW3 m ρ c (Proc.devRef .tc main_v4_0) := WW4_of_ne m ρ c main_v4_0 (by decide)
    _ = WW2 m ρ c (Proc.devRef .tc main_v4_0) := StableHlo.after_of_forall_not_mem (b := Proc.devRef .tc main_v4_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (VV1 m ρ) c).arrAt 7 cfg0.N := WW2_arr m ρ c 7

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (VV1 m ρ) c
  | ⟨1, _⟩ => fun c => dat1 (VV3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (WW4 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m ρ) c).loose
  hwaits := Pipeline.hwaits_of_owed_zero _ _ _ _ L lv 0 fun _ _ => rfl
  pre c := iprop(StableHlo.held (c : Thread nD τ) (Pipeline.ucRefs τ sig) (WW1 m ρ c) ∗ R c)
  post c := iprop(StableHlo.held (c : Thread nD τ) (Pipeline.ucRefs τ sig) (WW2 m ρ c) ∗ R c)
  X c := iprop(∃ r, prngReg c r)
  Y c := iprop(∃ r, prngReg c r)
  Z c := Pipeline.unscopedRest (Ix := Unit) (Name := ℕ) (U := UR sig nD τ) (Lvl := ℕ) spec0 c (VV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VV1 m ρ) c
    unfold Pipeline.ΦA at h
    rw [show (pdats m ρ 0 c).Φ 0 = (dat0 (VV1 m ρ) c).Φ 0 from rfl]
    iintro ⟨Hp, -, Hr⟩
    iapply h
    isplitl [Hr]; · iexact Hr
    iexact Hp
  hout c := by
    have h := hout0 (VV1 m ρ) c
    unfold Pipeline.ΦA at h
    rw [Pipeline.ownSems0_none, show (pdats m ρ 0 c).Φ (Fin.last _) = (dat0 (VV1 m ρ) c).Φ (Fin.last cfg0.N) from rfl]
    iintro HΦ
    ihave HA := h $$ HΦ
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV1 m ρ c) (VV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m ρ) c).loose
  hwaits := Pipeline.hwaits_of_owed_zero _ _ _ _ L lv 1 fun _ _ => rfl
  pre c := iprop(StableHlo.held (c : Thread nD τ) (Pipeline.ucRefs τ sig) (WW3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV3 m ρ c) (VV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (WW0 m ρ)),
    .region (reg0 m ρ),
    .host (hseg hostOps1 hostOps1_sub hostOps1_fresh (WW2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WW4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WW0 m ρ c)
        from Pipeline.unscopedBufs_held c (WW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW4 m ρ c b)
    (hfin := fun c s' => by
      iintro ⟨⟨Hh, -⟩, HSI⟩
      unfold StableHlo.held
      imodintro
      iapply (pointsTo_read_all (Pipeline.ucRefs τ sig) (fun b => (((c : Thread nD τ)).1, b)) (WW4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (WW4_main_arg0 m ρ c),
     (h c _ (mem_uc main_arg1 (by decide))).trans (WW4_main_arg1 m ρ c),
     (h c _ (mem_uc main_arg2 (by decide))).trans (WW4_main_arg2 m ρ c),
     (h c _ (mem_uc main_arg3 (by decide))).trans (WW4_main_arg3 m ρ c),
     (h c _ (mem_uc main_arg4 (by decide))).trans (WW4_main_arg4 m ρ c),
     (h c _ (mem_uc main_arg5 (by decide))).trans (WW4_main_arg5 m ρ c),
     (h c _ (mem_uc main_arg6 (by decide))).trans (WW4_main_arg6 m ρ c),
     (h c _ (mem_uc main_arg7 (by decide))).trans (WW4_main_arg7 m ρ c)⟩) (run_all m ρ)

/-- THE RUN WITH ITS RESULTS NAMED: the two results at what the calls' write-backs leave, the arguments as launched. -/
theorem run_results : θ_run defs (onTc (τ := τ) (main (F := F))) ⟨m, fun _ => 0, ρ⟩ (fun r => ∀ c : Dev nD,
      r.2.mem ((c.tc : Thread nD τ).loc main_v6) = (dat1 (VV3 m ρ) c).arrAt 3 cfg1.N
      ∧ r.2.mem ((c.tc : Thread nD τ).loc main_v4_0) = (dat0 (VV1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v6 (by decide))).trans (WW4_main_v6 m ρ c),
     (h c _ (mem_uc main_v4_0 (by decide))).trans (WW4_main_v4_0 m ρ c),
     (h c _ (mem_uc main_arg0 (by decide))).trans (WW4_main_arg0 m ρ c),
     (h c _ (mem_uc main_arg1 (by decide))).trans (WW4_main_arg1 m ρ c),
     (h c _ (mem_uc main_arg2 (by decide))).trans (WW4_main_arg2 m ρ c),
     (h c _ (mem_uc main_arg3 (by decide))).trans (WW4_main_arg3 m ρ c),
     (h c _ (mem_uc main_arg4 (by decide))).trans (WW4_main_arg4 m ρ c),
     (h c _ (mem_uc main_arg5 (by decide))).trans (WW4_main_arg5 m ρ c),
     (h c _ (mem_uc main_arg6 (by decide))).trans (WW4_main_arg6 m ρ c),
     (h c _ (mem_uc main_arg7 (by decide))).trans (WW4_main_arg7 m ρ c)⟩) (run_all m ρ)

end Cert.Kernel.Hand

end
-- ==== Proof.KI.Runs0.lean ====
/-
  The first pallas_call (the hidden layer, the encoder head, the second-layer support and the bf16 copy of the
  adjacency) — its body run once in each of its two control cases.

  At the first point of the grid the body first fills its scratch with x · W1, then (at every point) loads a
  [400,10000] row block of the adjacency and the scratch, and stores three blocks: the head's, the support's and
  the adjacency copy's.  Each case's run yields, for each stored buffer, the list of pieces its stores wrote.
-/
import proofs.«134555_g86887188398703_cont_sun_m_546_22_alg».proof.Proof.Gen.KernelIdeal.Launch
import proofs.«134555_g86887188398703_cont_sun_m_546_22_alg».proof.Proof.Gen.KernelIdeal.Skeleton
import proofs.«134555_g86887188398703_cont_sun_m_546_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The body's one branch condition: "this is the first grid point". -/
abbrev cond0 (i : grid0.Coords) : Prop :=
  (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

set_option maxHeartbeats 4000000 in
/-- THE FIRST POINT. The inputs' buffers at known contents, the outputs' and the scratch at anything: the body runs
    to the continuation with the inputs as they were and each output and the scratch with its pieces written. -/
noncomputable def kernelRun0_A (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i)
    (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    Σ' (L7 : List (View.Piece (Elt F) S400x16 .f32)) (L8 : List (View.Piece (Elt F) S400x64 .bf16)) (L9 : List (View.Piece (Elt F) S400x10000 .bf16)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0__pass1_body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

set_option maxHeartbeats 4000000 in
/-- A LATER POINT. As before, but the scratch is at known contents `xs` and comes back untouched. -/
noncomputable def kernelRun0_B (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i)
    (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) :
    Σ' (L7 : List (View.Piece (Elt F) S400x16 .f32)) (L8 : List (View.Piece (Elt F) S400x64 .bf16)), { L9 : List (View.Piece (Elt F) S400x10000 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs) -∗ K ⟨⟩))
          ⊢ wp frame (wpE (defs₀ (F := F)) Variants.none c none) E (cc0__pass1_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg11.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; isplitr; · ipureintro; exact harg11.read_unread _
    iexact HS

end Cert.KernelIdeal.Hand

end
-- ==== Proof.KI.Region0.lean ====
/-
  The first pallas_call at a generic point of its grid of twenty-five row blocks: what each window's staging
  buffer holds when the body is called, what the body leaves in the three output buffers and in the scratch, and
  the body's triple at every point.

  The scratch is filled with x · W1 at the first point and only read afterwards, so from the second point on the
  region's invariant holds it at the first point's contents; the three output blocks are stored whole at every
  point, so nothing is read back from them.
-/
import proofs.«134555_g86887188398703_cont_sun_m_546_22_alg».proof.Proof.KI.Runs0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether that point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the scratch. -/
abbrev ms0_0 (t : Fin cfg0.N) : Memref sig .tc .vmem S10000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S400x64 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S400x10000 .bf16 := win0_9.stage (cfg0.slots t 9)
abbrev hs0_9 (t : Fin cfg0.N) : (ms0_9 t).IsWhole := hstage0_9 ((cfg0.slots t 9).cast nbuf0_9)
abbrev scM0 : Memref sig .tc .vmem S10000x128 .bf16 := Memref.whole cc0_scratch0

/-- One buffer of each stored shape, through which the stored contents are stated (the choice does not matter). -/
abbrev VO0_7 : View sig .tc .vmem S400x16 .f32 := (Memref.whole cc0_stg7_0 : Memref sig .tc .vmem S400x16 .f32).view
abbrev VO0_8 : View sig .tc .vmem S400x64 .bf16 := (Memref.whole cc0_stg8_0 : Memref sig .tc .vmem S400x64 .bf16).view
abbrev VO0_9 : View sig .tc .vmem S400x10000 .bf16 := (Memref.whole cc0_stg9_0 : Memref sig .tc .vmem S400x10000 .bf16).view
abbrev VS0 : View sig .tc .vmem S10000x128 .bf16 := scM0.view

/-! ## What the first point's stores leave -/

/-- Each stored buffer's pieces at the first point tile it, so they cover it. -/
theorem cover0_A_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x16.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).1 S400x16.size (by sl_kernel_rfl) y
theorem cover0_A_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x64.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1 S400x64.size (by sl_kernel_rfl) y
theorem cover0_A_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S400x10000.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1 S400x10000.size (by sl_kernel_rfl) y
theorem cover0_A_S (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (y : S10000x128.Idx) :
    ∃ pc ∈ (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1 S10000x128.size (by sl_kernel_rfl) y

/-- What the first point leaves in each stored buffer: its pieces read back. -/
def out0_A_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x16 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).1)
def out0_A_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x64 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.1)
def out0_A_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S400x10000 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.1)
def out0_A_S (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) : Vec F S10000x128 .bf16 :=
  VS0.read (Elt F) (VS0.writes (Elt F) VS0.junk (kernelRun0_A c i arg1 harg1 arg2 harg2 arg3 harg3 arg4 harg4 arg5 harg5 arg6 harg6 arg7 harg7 arg8 harg8 arg9 harg9 arg10 harg10 arg11 harg11 hc x0 x1 x2 x3 x4 x5 x6).2.2.2.1)

/-! ## What a later point's stores leave -/

theorem cover0_B_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x16.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1 S400x16.size (by sl_kernel_rfl) y
theorem cover0_B_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x64.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1 S400x64.size (by sl_kernel_rfl) y
theorem cover0_B_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) (y : S400x10000.Idx) :
    ∃ pc ∈ (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1 S400x10000.size (by sl_kernel_rfl) y

def out0_B_7 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x16 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).1)
def out0_B_8 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x64 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.1)
def out0_B_9 (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) : Vec F S400x10000 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc x0 x1 x2 x3 x4 x5 x6 xs).2.2.1)

/-! ## Point by point -/

/-- The first grid point. -/
def t00 : Fin cfg0.N := ⟨0, by rw [show cfg0.N = 25 from N_0]; decide⟩

/-- What the scratch holds from the first point on: what the first point's store left. -/
def scr0 (c : Dev nD) : Vec F S10000x128 .bf16 :=
  out0_A_S c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) (ms0_8 t00) (hs0_8 t00) (ms0_9 t00) (hs0_9 t00) scM0 (Memref.isWhole_whole _) ((hcond0 t00).mpr rfl) (iblk0 V c 0 t00) (iblk0 V c 1 t00) (iblk0 V c 2 t00) (iblk0 V c 3 t00) (iblk0 V c 4 t00) (iblk0 V c 5 t00) (iblk0 V c 6 t00)

/-- What the three output buffers hold after the body at point `t`. -/
def outs0 (c : Dev nD) (t : Fin cfg0.N) : Vec F S400x16 .f32 × Vec F S400x64 .bf16 × Vec F S400x10000 .bf16 :=
  if h : t.val = 0 then
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t))
  else
    (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c))

theorem outs0_A (c : Dev nD) (t : Fin cfg0.N) (h : t.val = 0) : outs0 V c t =
    (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t),
     out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) ((hcond0 t).mpr h) (iblk0 V c 0 t) (iblk0 V c 1 t) (iblk0 V c 2 t) (iblk0 V c 3 t) (iblk0 V c 4 t) (iblk0 V c 5 t) (iblk0 V c 6 t)) := dif_pos h
theorem outs0_B (c : Dev nD) (t : Fin cfg0.N) (h : ¬t.val = 0) : outs0 V c t =
    (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c),
     out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => h ((hcond0 t).mp hh)) (iblk0 V c 0 t) (iblk0 V c 1 t) (iblk0 V c 2 t) (iblk0 V c 3 t) (iblk0 V c 4 t) (iblk0 V c 5 t) (iblk0 V c 6 t) (scr0 V c)) := dif_neg h

/-- The second call's staging buffers, which this call never touches: each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the scratch as a buffer owned at some contents. -/
theorem PhiA0_eq (c : Dev nD) :
    (Pipeline.ΦA spec0 c : sProp 𝕄)
      = iprop(iprop((∃ d, owns (c : Thread nD τ) scM0 fullShare d) ∗ restB (F := F) c) ∗ (∃ r, prngReg c r)) := by
  unfold Pipeline.ΦA restB; rw [scopedRest0_eq]; simp only [scM0, owns_whole]; try rfl

/-- The region's invariant before position `n`: before the first point the class's (the scratch at anything);
    afterwards the scratch at what the first point left, the rest as before. -/
def Phi0 (c : Dev nD) : ℕ → sProp 𝕄
  | 0 => Pipeline.ΦA spec0 c
  | _ + 1 => iprop(iprop(owns (c : Thread nD τ) scM0 fullShare (scr0 V c) ∗ restB (F := F) c) ∗ (∃ r, prngReg c r))

theorem Phi0_pos (c : Dev nD) (n : ℕ) (hz : n ≠ 0) :
    Phi0 V c n = iprop(iprop(owns (c : Thread nD τ) scM0 fullShare (scr0 V c) ∗ restB (F := F) c) ∗ (∃ r, prngReg c r)) := by
  cases n with
  | zero => exact absurd rfl hz
  | succ n => rfl

/-! ## The call's proof data -/

/-- The first call's proof data on core `c`: the arrays as the call finds them; after the body at point `t` each
    input's buffer at its block and the outputs' at `outs0`; the invariant `Phi0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outs0 V c t).1
    | ⟨8, _⟩ => (outs0 V c t).2.1
    | ⟨9, _⟩ => (outs0 V c t).2.2
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outs0 V c t).1 := by dsimp only [dat0]
theorem after0_8 (c : Dev nD) (t : Fin cfg0.N) : (dat0 V c).after 8 t = (outs0 V c t).2.1 := by dsimp only [dat0]
theorem after0_9 (c : Dev nD) (t : Fin cfg0.N) : (dat0 V c).after 9 t = (outs0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem Phi0_castSucc (c : Dev nD) (t : Fin cfg0.N) : (dat0 V c).Φ t.castSucc = Phi0 V c t.val := by
  dsimp only [dat0]; simp only [Fin.coe_castSucc]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' buffers hold their blocks; at the first point the invariant hands over the
    scratch at anything and takes it back at what the point stored; at a later point it hands it over at the first
    point's contents and takes it back untouched; what the core owes passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = Phi0 V c (t.val + 1) from rfl, Phi0_pos V c (t.val + 1) (Nat.succ_ne_zero _)]
  rw [after0_0, after0_1, after0_2, after0_3, after0_4, after0_5, after0_6, after0_7, after0_8, after0_9, Phi0_castSucc]
  by_cases hz : t.val = 0
  · obtain rfl : t = t00 := Fin.ext hz
    rw [outs0_A V c t00 hz, show Phi0 V c t00.val = Pipeline.ΦA spec0 c from rfl, PhiA0_eq]
    unfold scr0 out0_A_7 out0_A_8 out0_A_9 out0_A_S; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) (ms0_8 t00) (hs0_8 t00) (ms0_9 t00) (hs0_9 t00) scM0 (Memref.isWhole_whole _) ((hcond0 t00).mpr hz) (iblk0 V c 0 t00) (iblk0 V c 1 t00) (iblk0 V c 2 t00) (iblk0 V c 3 t00) (iblk0 V c 4 t00) (iblk0 V c 5 t00) (iblk0 V c 6 t00)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, ⟨%es, HS⟩⟩
    isplitl [HS HR Hg]
    · isplitl [HS HR]
      · isplitl [HS]
        · unfold owns; iexists _; isplitr
          swap; · iexact HS
          ipureintro; exact View.read_writes_of_cover _ _ _ _ _ (cover0_A_S c _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outs0_B V c t hz, Phi0_pos V c t.val hz]
    unfold out0_B_7 out0_B_8 out0_B_9; (try dsimp only)
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (fun hh => hz ((hcond0 t).mp hh)) (iblk0 V c 0 t) (iblk0 V c 1 t) (iblk0 V c 2 t) (iblk0 V c 3 t) (iblk0 V c 4 t) (iblk0 V c 5 t) (iblk0 V c 6 t) (scr0 V c)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS]; · iexact HS
    iintro ⟨H0, H1, H2, H3, H4, H5, H6, ⟨%e7, H7⟩, ⟨%e8, H8⟩, ⟨%e9, H9⟩, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.KernelIdeal.Hand

end
-- ==== Proof.KI.Region1.lean ====
/-
  The second pallas_call (the log-softmax pass) at a generic point of its grid of ten row blocks.

  Its body reads three staged blocks — a [1000,10000] row block of the adjacency copy, the whole [10000,64]
  second-layer support and the [1,64] bias row — and stores one [1000,64] block: the shifted logits minus the
  logarithm of the row sum of their exponentials.  Here: what each window's staging buffer holds when the body
  is called (the block of the array the call found), what the body leaves in the output's buffer as one value of
  the three input blocks, and the body's triple at every point.
-/
import proofs.«134555_g86887188398703_cont_sun_m_546_22_alg».proof.Proof.Gen.KernelIdeal.Launch
import proofs.«134555_g86887188398703_cont_sun_m_546_22_alg».proof.Proof.Gen.KernelIdeal.Skeleton
import proofs.«134555_g86887188398703_cont_sun_m_546_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_adj : Rect S1000x10000 := Rect.unit (s := S1000x10000) ![0, 0] S1000x10000.size inb_S1000x10000_S1000x10000_0_0
abbrev r1_s2 : Rect S10000x64 := Rect.unit (s := S10000x64) ![0, 0] S10000x64.size inb_S10000x64_S10000x64_0_0
abbrev r1_b2 : Rect S1x64 := Rect.unit (s := S1x64) ![0, 0] S1x64.size inb_S1x64_S1x64_0_0
abbrev r1_out : Rect S1000x64 := Rect.unit (s := S1000x64) ![0, 0] S1000x64.size inb_S1000x64_S1000x64_0_0

/-- What the body leaves in the output window's buffer, from the three input blocks: its one store. -/
def out1_3 (x0 : Vec F S1000x10000 .bf16) (x1 : Vec F S10000x64 .bf16) (x2 : Vec F S1x64 .f32) : Vec F S1000x64 .f32 :=
  View.canon [⟨r1_out, k1_pay1 (View.ld x0 r1_adj) (View.ld x1 r1_s2) (View.ld x2 r1_b2)⟩]

/-- The one store covers the buffer. -/
theorem cover1_3 (p0 : Vec F S1000x64 .f32) (y : S1000x64.Idx) :
    ∃ pc ∈ ([⟨r1_out, p0⟩] : List (View.Piece (Elt F) S1000x64 .f32)), y ∈ pc.1.set :=
  View.cover_of_tiled [⟨r1_out, p0⟩] S1000x64.size (by rfl) y

set_option maxHeartbeats 1000000 in
/-- The body on whole staging buffers, the inputs' at known contents and the output's at anything, runs to the
    continuation with the inputs as they were and the output at `out1_3` of them. -/
theorem sound_kernel1 (c : Dev nD) (E : Set ℕ) (i : grid1.Coords) (arg1 : Memref sig .tc .vmem S1000x10000 .bf16) (harg1 : arg1.IsWhole)
    (arg2 : Memref sig .tc .vmem S10000x64 .bf16) (harg2 : arg2.IsWhole) (arg3 : Memref sig .tc .vmem S1x64 .f32) (harg3 : arg3.IsWhole)
    (arg4 : Memref sig .tc .vmem S1000x64 .f32) (harg4 : arg4.IsWhole)
    (x0 : Vec F S1000x10000 .bf16) (x1 : Vec F S10000x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_body i arg1 harg1 arg2 harg2 arg3 harg3 arg4 harg4) K := by
  simp only [cc1__pass2_body_eq_skeleton]; unfold cc1__pass2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The call's proof data on core `c`: the arrays as the call finds them; after the body at point `t` each input's
    buffer at its block and the output's at `out1_3` of the input blocks; nothing carried between points. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program as a run: the four host operations before the first pallas_call, that call, the one host
  operation between, the second call — every unscoped buffer followed from the launch memory to the return.

  Between two items a core holds every unscoped buffer at named contents: the launch memory; after the first host
  stretch; after the first call (its three result arrays at what its write-backs leave, everything else as it
  was); after the second stretch; after the second call.  The run ends with every unscoped buffer at the last of
  these, from which the argument arrays are read back unchanged and the two results are read as what the calls'
  write-backs leave.
-/
import proofs.«134555_g86887188398703_cont_sun_m_546_22_alg».proof.Proof.KI.Region0
import proofs.«134555_g86887188398703_cont_sun_m_546_22_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffer contents at each boundary -/

/-- Core `c`'s buffers at launch. -/
abbrev WW0 : Dev nD → Valuation τ sig (Elt F) := fun c b => (s₀ m ρ).mem ((c : Dev nD), b)
/-- After the first host stretch (the first call's entry). -/
abbrev WW1 : Dev nD → Valuation τ sig (Elt F) := fun c => StableHlo.after hostOps0 (WW0 m ρ c)
abbrev VV1 : (c : Dev nD) → (b : Ref sig .tc) → Buf (Elt F) ((c : Thread nD τ).loc b) := fun c b => WW1 m ρ c b
/-- At the first call's exit: its arrays at what the pipeline leaves, every other buffer as entered. -/
def WW2 (c : Dev nD) : Valuation τ sig (Elt F) :=
  Pipeline.withArrays spec0 c (WW1 m ρ c) fun w => (dat0 (VV1 m ρ) c).arrAt w cfg0.N
theorem WW2_arr (c : Dev nD) (w : Fin cfg0.W) :
    WW2 m ρ c (Proc.devRef .tc (Pipeline.arrRef spec0 w)) = (dat0 (VV1 m ρ) c).arrAt w cfg0.N := by
  unfold WW2; exact Pipeline.withArrays_arr spec0 launch0.win.arr_inj c _ _ w
theorem WW2_of_ne (c : Dev nD) (b : Ref sig .tc) (hb : ∀ w, Pipeline.arrRef spec0 w ≠ b) :
    WW2 m ρ c (Proc.devRef .tc b) = WW1 m ρ c (Proc.devRef .tc b) := by
  unfold WW2; exact Pipeline.withArrays_of_ne spec0 c _ _ b hb
abbrev VV2 : (c : Dev nD) → (b : Ref sig .tc) → Buf (Elt F) ((c : Thread nD τ).loc b) := fun c b => WW2 m ρ c b
theorem hF0 (c : Dev nD) (w : Fin cfg0.W) : (dat0 (VV1 m ρ) c).arrAt w cfg0.N = VV2 m ρ c (Pipeline.arrRef spec0 w) :=
  (WW2_arr m ρ c w).symm
theorem hrest0 (c : Dev nD) : ∀ b, b ∉ Finset.univ.image (Pipeline.arrRef spec0) → VV2 m ρ c b = VV1 m ρ c b :=
  fun b hb => WW2_of_ne m ρ c b fun w e => hb (Finset.mem_image.mpr ⟨w, Finset.mem_univ _, e⟩)

/-- After the second host stretch (the second call's entry). -/
abbrev WW3 : Dev nD → Valuation τ sig (Elt F) := fun c => StableHlo.after hostOps1 (WW2 m ρ c)
abbrev VV3 : (c : Dev nD) → (b : Ref sig .tc) → Buf (Elt F) ((c : Thread nD τ).loc b) := fun c b => WW3 m ρ c b
/-- At the second call's exit. -/
def WW4 (c : Dev nD) : Valuation τ sig (Elt F) :=
  Pipeline.withArrays spec1 c (WW3 m ρ c) fun w => (dat1 (VV3 m ρ) c).arrAt w cfg1.N
theorem WW4_arr (c : Dev nD) (w : Fin cfg1.W) :
    WW4 m ρ c (Proc.devRef .tc (Pipeline.arrRef spec1 w)) = (dat1 (VV3 m ρ) c).arrAt w cfg1.N := by
  unfold WW4; exact Pipeline.withArrays_arr spec1 launch1.win.arr_inj c _ _ w
theorem WW4_of_ne (c : Dev nD) (b : Ref sig .tc) (hb : ∀ w, Pipeline.arrRef spec1 w ≠ b) :
    WW4 m ρ c (Proc.devRef .tc b) = WW3 m ρ c (Proc.devRef .tc b) := by
  unfold WW4; exact Pipeline.withArrays_of_ne spec1 c _ _ b hb
abbrev VV4 : (c : Dev nD) → (b : Ref sig .tc) → Buf (Elt F) ((c : Thread nD τ).loc b) := fun c b => WW4 m ρ c b
theorem hF1 (c : Dev nD) (w : Fin cfg1.W) : (dat1 (VV3 m ρ) c).arrAt w cfg1.N = VV4 m ρ c (Pipeline.arrRef spec1 w) :=
  (WW4_arr m ρ c w).symm
theorem hrest1 (c : Dev nD) : ∀ b, b ∉ Finset.univ.image (Pipeline.arrRef spec1) → VV4 m ρ c b = VV3 m ρ c b :=
  fun b hb => WW4_of_ne m ρ c b fun w e => hb (Finset.mem_image.mpr ⟨w, Finset.mem_univ _, e⟩)

/-! ### The arguments end as launched: no host operation writes one, and a call either reads it through an input
    window or does not touch it -/

theorem WW4_main_arg0 (c : Dev nD) : WW4 m ρ c (Proc.devRef .tc main_arg0) = m ((c : Thread nD τ).loc main_arg0) :=
  calc WW4 m ρ c (Proc.devRef .tc main_arg0)
    _ = WW3 m ρ c (Proc.devRef .tc main_arg0) := WW4_of_ne m ρ c main_arg0 (by decide)
    _ = WW2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg0) := WW2_of_ne m ρ c main_arg0 (by decide)
    _ = WW0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem WW4_main_arg1 (c : Dev nD) : WW4 m ρ c (Proc.devRef .tc main_arg1) = m ((c : Thread nD τ).loc main_arg1) :=
  calc WW4 m ρ c (Proc.devRef .tc main_arg1)
    _ = WW3 m ρ c (Proc.devRef .tc main_arg1) := WW4_of_ne m ρ c main_arg1 (by decide)
    _ = WW2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg1) := (WW2_arr m ρ c 1).trans (((dat0 (VV1 m ρ) c).arrAt_in 1 rfl _).trans (A_eq0 (VV1 m ρ) c 1))
    _ = WW0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem WW4_main_arg2 (c : Dev nD) : WW4 m ρ c (Proc.devRef .tc main_arg2) = m ((c : Thread nD τ).loc main_arg2) :=
  calc WW4 m ρ c (Proc.devRef .tc main_arg2)
    _ = WW3 m ρ c (Proc.devRef .tc main_arg2) := WW4_of_ne m ρ c main_arg2 (by decide)
    _ = WW2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg2) := WW2_of_ne m ρ c main_arg2 (by decide)
    _ = WW0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem WW4_main_arg3 (c : Dev nD) : WW4 m ρ c (Proc.devRef .tc main_arg3) = m ((c : Thread nD τ).loc main_arg3) :=
  calc WW4 m ρ c (Proc.devRef .tc main_arg3)
    _ = WW3 m ρ c (Proc.devRef .tc main_arg3) := WW4_of_ne m ρ c main_arg3 (by decide)
    _ = WW2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg3) := WW2_of_ne m ρ c main_arg3 (by decide)
    _ = WW0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem WW4_main_arg4 (c : Dev nD) : WW4 m ρ c (Proc.devRef .tc main_arg4) = m ((c : Thread nD τ).loc main_arg4) :=
  calc WW4 m ρ c (Proc.devRef .tc main_arg4)
    _ = WW3 m ρ c (Proc.devRef .tc main_arg4) := WW4_of_ne m ρ c main_arg4 (by decide)
    _ = WW2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg4) := (WW2_arr m ρ c 4).trans (((dat0 (VV1 m ρ) c).arrAt_in 4 rfl _).trans (A_eq0 (VV1 m ρ) c 4))
    _ = WW0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem WW4_main_arg5 (c : Dev nD) : WW4 m ρ c (Proc.devRef .tc main_arg5) = m ((c : Thread nD τ).loc main_arg5) :=
  calc WW4 m ρ c (Proc.devRef .tc main_arg5)
    _ = WW3 m ρ c (Proc.devRef .tc main_arg5) := WW4_of_ne m ρ c main_arg5 (by decide)
    _ = WW2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg5) := WW2_of_ne m ρ c main_arg5 (by decide)
    _ = WW0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem WW4_main_arg6 (c : Dev nD) : WW4 m ρ c (Proc.devRef .tc main_arg6) = m ((c : Thread nD τ).loc main_arg6) :=
  calc WW4 m ρ c (Proc.devRef .tc main_arg6)
    _ = WW3 m ρ c (Proc.devRef .tc main_arg6) := WW4_of_ne m ρ c main_arg6 (by decide)
    _ = WW2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg6) := (WW2_arr m ρ c 5).trans (((dat0 (VV1 m ρ) c).arrAt_in 5 rfl _).trans (A_eq0 (VV1 m ρ) c 5))
    _ = WW0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem WW4_main_arg7 (c : Dev nD) : WW4 m ρ c (Proc.devRef .tc main_arg7) = m ((c : Thread nD τ).loc main_arg7) :=
  calc WW4 m ρ c (Proc.devRef .tc main_arg7)
    _ = WW3 m ρ c (Proc.devRef .tc main_arg7) := WW4_of_ne m ρ c main_arg7 (by decide)
    _ = WW2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = WW1 m ρ c (Proc.devRef .tc main_arg7) := WW2_of_ne m ρ c main_arg7 (by decide)
    _ = WW0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ### The two results are what the calls' write-backs leave -/

/-- The first result (the log-softmax) is the second call's output array. -/
theorem WW4_main_v6 (c : Dev nD) : WW4 m ρ c (Proc.devRef .tc main_v6) = (dat1 (VV3 m ρ) c).arrAt 3 cfg1.N :=
  WW4_arr m ρ c 3
/-- The second result (the encoder head) is the first call's first output array, untouched afterwards. -/
theorem WW4_main_v4_0 (c : Dev nD) : WW4 m ρ c (Proc.devRef .tc main_v4_0) = (dat0 (VV1 m ρ) c).arrAt 7 cfg0.N :=
  calc WW4 m ρ c (Proc.devRef .tc main_v4_0)
    _ = WW3 m ρ c (Proc.devRef .tc main_v4_0) := WW4_of_ne m ρ c main_v4_0 (by decide)
    _ = WW2 m ρ c (Proc.devRef .tc main_v4_0) := StableHlo.after_of_forall_not_mem (b := Proc.devRef .tc main_v4_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (VV1 m ρ) c).arrAt 7 cfg0.N := WW2_arr m ρ c 7

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (VV1 m ρ) c
  | ⟨1, _⟩ => fun c => dat1 (VV3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (WW4 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m ρ) c).loose
  hwaits := Pipeline.hwaits_of_owed_zero _ _ _ _ L lv 0 fun _ _ => rfl
  pre c := iprop(StableHlo.held (c : Thread nD τ) (Pipeline.ucRefs τ sig) (WW1 m ρ c) ∗ R c)
  post c := iprop(StableHlo.held (c : Thread nD τ) (Pipeline.ucRefs τ sig) (WW2 m ρ c) ∗ R c)
  X c := iprop(∃ r, prngReg c r)
  Y c := iprop(∃ r, prngReg c r)
  Z c := Pipeline.unscopedRest (Ix := Unit) (Name := ℕ) (U := UR sig nD τ) (Lvl := ℕ) spec0 c (VV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VV1 m ρ) c
    unfold Pipeline.ΦA at h
    rw [show (pdats m ρ 0 c).Φ 0 = (dat0 (VV1 m ρ) c).Φ 0 from rfl]
    iintro ⟨Hp, -, Hr⟩
    iapply h
    isplitl [Hr]; · iexact Hr
    iexact Hp
  hout c := by
    have h := hout0 (VV1 m ρ) c
    unfold Pipeline.ΦA at h
    rw [Pipeline.ownSems0_none, show (pdats m ρ 0 c).Φ (Fin.last _) = (dat0 (VV1 m ρ) c).Φ (Fin.last cfg0.N) from rfl]
    iintro HΦ
    ihave HA := h $$ HΦ
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV1 m ρ c) (VV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m ρ) c).loose
  hwaits := Pipeline.hwaits_of_owed_zero _ _ _ _ L lv 1 fun _ _ => rfl
  pre c := iprop(StableHlo.held (c : Thread nD τ) (Pipeline.ucRefs τ sig) (WW3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV3 m ρ c) (VV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (WW0 m ρ)),
    .region (reg0 m ρ),
    .host (hseg hostOps1 hostOps1_sub hostOps1_fresh (WW2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WW4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WW0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WW0 m ρ c)
        from Pipeline.unscopedBufs_held c (WW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WW4 m ρ c b)
    (hfin := fun c s' => by
      iintro ⟨⟨Hh, -⟩, HSI⟩
      unfold StableHlo.held
      imodintro
      iapply (pointsTo_read_all (Pipeline.ucRefs τ sig) (fun b => (((c : Thread nD τ)).1, b)) (WW4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (WW4_main_arg0 m ρ c),
     (h c _ (mem_uc main_arg1 (by decide))).trans (WW4_main_arg1 m ρ c),
     (h c _ (mem_uc main_arg2 (by decide))).trans (WW4_main_arg2 m ρ c),
     (h c _ (mem_uc main_arg3 (by decide))).trans (WW4_main_arg3 m ρ c),
     (h c _ (mem_uc main_arg4 (by decide))).trans (WW4_main_arg4 m ρ c),
     (h c _ (mem_uc main_arg5 (by decide))).trans (WW4_main_arg5 m ρ c),
     (h c _ (mem_uc main_arg6 (by decide))).trans (WW4_main_arg6 m ρ c),
     (h c _ (mem_uc main_arg7 (by decide))).trans (WW4_main_arg7 m ρ c)⟩) (run_all m ρ)

/-- THE RUN WITH ITS RESULTS NAMED: the two results at what the calls' write-backs leave, the arguments as launched. -/
theorem run_results : θ_run defs (onTc (τ := τ) (main (F := F))) ⟨m, fun _ => 0, ρ⟩ (fun r => ∀ c : Dev nD,
      r.2.mem ((c.tc : Thread nD τ).loc main_v6) = (dat1 (VV3 m ρ) c).arrAt 3 cfg1.N
      ∧ r.2.mem ((c.tc : Thread nD τ).loc main_v4_0) = (dat0 (VV1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v6 (by decide))).trans (WW4_main_v6 m ρ c),
     (h c _ (mem_uc main_v4_0 (by decide))).trans (WW4_main_v4_0 m ρ c),
     (h c _ (mem_uc main_arg0 (by decide))).trans (WW4_main_arg0 m ρ c),
     (h c _ (mem_uc main_arg1 (by decide))).trans (WW4_main_arg1 m ρ c),
     (h c _ (mem_uc main_arg2 (by decide))).trans (WW4_main_arg2 m ρ c),
     (h c _ (mem_uc main_arg3 (by decide))).trans (WW4_main_arg3 m ρ c),
     (h c _ (mem_uc main_arg4 (by decide))).trans (WW4_main_arg4 m ρ c),
     (h c _ (mem_uc main_arg5 (by decide))).trans (WW4_main_arg5 m ρ c),
     (h c _ (mem_uc main_arg6 (by decide))).trans (WW4_main_arg6 m ρ c),
     (h c _ (mem_uc main_arg7 (by decide))).trans (WW4_main_arg7 m ρ c)⟩) (run_all m ρ)

end Cert.KernelIdeal.Hand

end
-- ==== Proof.KI.HostVals.lean ====
/-
  What the host operations leave in the buffers the two pallas_calls read, at the ideal instance.

  Before the first call: x and W1 converted to bf16 (at the ideal instance a change of format is the identity, so
  these are x and W1 themselves) and the two bias vectors reshaped to rows [1,128] and [1,16] (entry (0,h) is
  entry h).  Between the calls: b2 reshaped to a row [1,64].  The second call's adjacency copy and support are what
  the first call's write-backs left, untouched by the reshape between.
-/
import proofs.«134555_g86887188398703_cont_sun_m_546_22_alg».proof.Proof.KI.Run
import Idealize.ShloMosaic.Lib.ValueLayout
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

/-- The bf16 copy of x is x. -/
theorem VV1_v0_at (c : Dev nD) (n : Fin 10000) (k : Fin 128) :
    (VV1 m ρ c main_v0 (ix2 n k) : EReal) = m ((c : Thread nD τ).loc main_arg0) (ix2 n k) := by
  have e : VV1 m ρ c main_v0 = ((truncf (F := Ideal) .bf16 · bitsLt_bf16_f32) : (⟨S10000x128, .f32⟩ : BufTy).Contents (Elt Ideal) → (⟨S10000x128, .bf16⟩ : BufTy).Contents (Elt Ideal)) (m ((c : Thread nD τ).loc main_arg0)) := by
    dsimp only [VV1, WW1, hostOps0]; after_results; try rfl
  rw [e]; rfl

/-- The bf16 copy of W1 is W1. -/
theorem VV1_v1_at (c : Dev nD) (k : Fin 128) (h : Fin 128) :
    (VV1 m ρ c main_v1 (ix2 k h) : EReal) = m ((c : Thread nD τ).loc main_arg2) (ix2 k h) := by
  have e : VV1 m ρ c main_v1 = ((truncf (F := Ideal) .bf16 · bitsLt_bf16_f32) : (⟨S128x128, .f32⟩ : BufTy).Contents (Elt Ideal) → (⟨S128x128, .bf16⟩ : BufTy).Contents (Elt Ideal)) (m ((c : Thread nD τ).loc main_arg2)) := by
    dsimp only [VV1, WW1, hostOps0]; after_results; try rfl
  rw [e]; rfl

/-- The row [1,128] holding b1. -/
theorem VV1_v2_at (c : Dev nD) (h : Fin 128) :
    (VV1 m ρ c main_v2 (ix2 (0 : Fin 1) h) : EReal) = m ((c : Thread nD τ).loc main_arg3) (ix1 h) := by
  have e : VV1 m ρ c main_v2 = shapeCast S1x128 (m ((c : Thread nD τ).loc main_arg3)) shapeCasts_S128_S1x128 := by
    dsimp only [VV1, WW1, hostOps0]; after_results; rfl
  rw [e]; exact ValueIdx.shapeCast_a_1a_apply _ _ 0 h

/-- The row [1,16] holding be. -/
theorem VV1_v3_at (c : Dev nD) (s : Fin 16) :
    (VV1 m ρ c main_v3 (ix2 (0 : Fin 1) s) : EReal) = m ((c : Thread nD τ).loc main_arg7) (ix1 s) := by
  have e : VV1 m ρ c main_v3 = shapeCast S1x16 (m ((c : Thread nD τ).loc main_arg7)) shapeCasts_S16_S1x16 := by
    dsimp only [VV1, WW1, hostOps0]; after_results; rfl
  rw [e]; exact ValueIdx.shapeCast_a_1a_apply _ _ 0 s

/-- The arguments the first call reads directly are as launched. -/
theorem VV1_arg1 (c : Dev nD) : VV1 m ρ c main_arg1 = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem VV1_arg4 (c : Dev nD) : VV1 m ρ c main_arg4 = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem VV1_arg6 (c : Dev nD) : VV1 m ρ c main_arg6 = m ((c : Thread nD τ).loc main_arg6) :=
  StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The row [1,64] holding b2. -/
theorem VV3_v5_at (c : Dev nD) (q : Fin 64) :
    (VV3 m ρ c main_v5 (ix2 (0 : Fin 1) q) : EReal) = m ((c : Thread nD τ).loc main_arg5) (ix1 q) := by
  have e : VV3 m ρ c main_v5 = shapeCast S1x64 (WW2 m ρ c (Proc.devRef .tc main_arg5)) shapeCasts_S64_S1x64 := by
    dsimp only [VV3, WW3, hostOps1]; after_results; rfl
  have e5 : WW2 m ρ c (Proc.devRef .tc main_arg5) = m ((c : Thread nD τ).loc main_arg5) :=
    (WW2_of_ne m ρ c main_arg5 (by decide)).trans (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
  rw [e, e5]; exact ValueIdx.shapeCast_a_1a_apply _ _ 0 q

/-- The second call's adjacency copy and support are the first call's second and third result arrays. -/
theorem VV3_v4_2 (c : Dev nD) : VV3 m ρ c main_v4_2 = (dat0 (VV1 m ρ) c).arrAt 9 cfg0.N :=
  (StableHlo.after_of_forall_not_mem (b := Proc.devRef .tc main_v4_2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WW2_arr m ρ c 9)
theorem VV3_v4_1 (c : Dev nD) : VV3 m ρ c main_v4_1 = (dat0 (VV1 m ρ) c).arrAt 8 cfg0.N :=
  (StableHlo.after_of_forall_not_mem (b := Proc.devRef .tc main_v4_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (WW2_arr m ρ c 8)

end Cert.KernelIdeal.Hand

end
-- ==== Proof.KI.Pieces0.lean ====
/-
  What the first pallas_call's stores leave, as values of the loaded blocks.

  Each buffer is stored whole by one store, so what it holds afterwards is that store's value: the scratch holds
  x · W1 (of the staged x and W1 blocks); the three output buffers hold the head, the support and the adjacency
  copy computed from the adjacency block, the scratch and the small operands.  At the first point the scratch the
  body reads back is the one it has just stored.
-/
import proofs.«134555_g86887188398703_cont_sun_m_546_22_alg».proof.Proof.KI.Region0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem hz2 : (![0, 0] : Fin 2 → Nat) = fun _ => 0 := funext fun a => by fin_cases a <;> rfl

/-- The scratch after the first point: x · W1 of the staged blocks. -/
theorem out0_A_S_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    out0_A_S c i arg1 harg1 arg2 harg2 arg3 harg3 arg4 harg4 arg5 harg5 arg6 harg6 arg7 harg7 arg8 harg8 arg9 harg9 arg10 harg10 arg11 harg11 hc x0 x1 x2 x3 x4 x5 x6 = k0_pay1 x0 x2 := by
  unfold out0_A_S
  rw [View.read_writes_eq_canon _ _ _ (cover0_A_S c i arg1 harg1 arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]

/-- The head's block after the first point. -/
theorem out0_A_7_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    out0_A_7 c i arg1 harg1 arg2 harg2 arg3 harg3 arg4 harg4 arg5 harg5 arg6 harg6 arg7 harg7 arg8 harg8 arg9 harg9 arg10 harg10 arg11 harg11 hc x0 x1 x2 x3 x4 x5 x6 = k0_pay3 x1 (k0_pay1 x0 x2) x3 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]
  rw [View.readCov_unit_zero (S := S10000x128) arg11.view hz2]

/-- The support's block after the first point. -/
theorem out0_A_8_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    out0_A_8 c i arg1 harg1 arg2 harg2 arg3 harg3 arg4 harg4 arg5 harg5 arg6 harg6 arg7 harg7 arg8 harg8 arg9 harg9 arg10 harg10 arg11 harg11 hc x0 x1 x2 x3 x4 x5 x6 = k0_pay4 x1 (k0_pay1 x0 x2) x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]
  rw [View.readCov_unit_zero (S := S10000x128) arg11.view hz2]

/-- The adjacency copy's block after the first point. -/
theorem out0_A_9_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) :
    out0_A_9 c i arg1 harg1 arg2 harg2 arg3 harg3 arg4 harg4 arg5 harg5 arg6 harg6 arg7 harg7 arg8 harg8 arg9 harg9 arg10 harg10 arg11 harg11 hc x0 x1 x2 x3 x4 x5 x6 = k0_pay5 x1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc x0 x1 x2 x3 x4 x5 x6)]
  unfold kernelRun0_A
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]

/-- The head's block after a later point, the scratch at `xs`. -/
theorem out0_B_7_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) :
    out0_B_7 c i arg1 harg1 arg2 harg2 arg3 harg3 arg4 harg4 arg5 harg5 arg6 harg6 arg7 harg7 arg8 harg8 arg9 harg9 arg10 harg10 arg11 harg11 hc x0 x1 x2 x3 x4 x5 x6 xs = k0_pay3 x1 xs x3 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc x0 x1 x2 x3 x4 x5 x6 xs)]
  unfold kernelRun0_B
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]

/-- The support's block after a later point. -/
theorem out0_B_8_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) :
    out0_B_8 c i arg1 harg1 arg2 harg2 arg3 harg3 arg4 harg4 arg5 harg5 arg6 harg6 arg7 harg7 arg8 harg8 arg9 harg9 arg10 harg10 arg11 harg11 hc x0 x1 x2 x3 x4 x5 x6 xs = k0_pay4 x1 xs x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc x0 x1 x2 x3 x4 x5 x6 xs)]
  unfold kernelRun0_B
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]

/-- The adjacency copy's block after a later point. -/
theorem out0_B_9_eq (c : Dev nD) (i : grid0.Coords) (arg1 : Memref sig .tc .vmem S10000x128 .bf16) (harg1 : arg1.IsWhole) (arg2 : Memref sig .tc .vmem S400x10000 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x64 .f32) (harg5 : arg5.IsWhole) (arg6 : Memref sig .tc .vmem S128x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S400x64 .bf16) (harg9 : arg9.IsWhole) (arg10 : Memref sig .tc .vmem S400x10000 .bf16) (harg10 : arg10.IsWhole) (arg11 : Memref sig .tc .vmem S10000x128 .bf16) (harg11 : arg11.IsWhole) (hc : ¬cond0 i) (x0 : Vec F S10000x128 .bf16) (x1 : Vec F S400x10000 .f32) (x2 : Vec F S128x128 .bf16) (x3 : Vec F S1x128 .f32) (x4 : Vec F S128x64 .f32) (x5 : Vec F S128x16 .f32) (x6 : Vec F S1x16 .f32) (xs : Vec F S10000x128 .bf16) :
    out0_B_9 c i arg1 harg1 arg2 harg2 arg3 harg3 arg4 harg4 arg5 harg5 arg6 harg6 arg7 harg7 arg8 harg8 arg9 harg9 arg10 harg10 arg11 harg11 hc x0 x1 x2 x3 x4 x5 x6 xs = k0_pay5 x1 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc x0 x1 x2 x3 x4 x5 x6 xs)]
  unfold kernelRun0_B
  dsimp only
  sl_unfold_words
  first
    | rw [View.canon_unit_zero hz2]
    | rw [View.canon_cons_unit_zero hz2]
  simp only [View.readAt_eq_ld, harg1.read_unread, harg2.read_unread, harg3.read_unread, harg4.read_unread, harg5.read_unread, harg6.read_unread, harg7.read_unread, harg11.read_unread,
    View.ld_unit_zero (S := S10000x128) hz2, View.ld_unit_zero (S := S400x10000) hz2, View.ld_unit_zero (S := S128x128) hz2, View.ld_unit_zero (S := S1x128) hz2, View.ld_unit_zero (S := S128x64) hz2, View.ld_unit_zero (S := S128x16) hz2, View.ld_unit_zero (S := S1x16) hz2]

end Cert.KernelIdeal.Hand

end
-- ==== Proof.KI.Blocks.lean ====
/-
  Where a window's block sits in its array.

  In the first call the adjacency window and the three output windows move down the rows, 400 at a time: the
  element (r, q) of the block at point t is the array's element (400·t + r, q).  In the second call the adjacency
  copy's window and the output window move 1000 rows at a time.  Every other window is its whole array at every
  point.
-/
import proofs.«134555_g86887188398703_cont_sun_m_546_22_alg».proof.Proof.KI.Region0
import proofs.«134555_g86887188398703_cont_sun_m_546_22_alg».proof.Proof.KI.Region1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx

/-- Row r of the block at point t of the first call's grid is row 400·t + r of the array. -/
def rowAt0 (t : Fin cfg0.N) (r : Fin 400) : Fin 10000 :=
  ⟨400 * t.val + r.val, by have : t.val < 25 := lt_of_lt_of_eq t.isLt (show cfg0.N = 25 from N_0); omega⟩
/-- Row r of the block at point t of the second call's grid is row 1000·t + r of the array. -/
def rowAt1 (t : Fin cfg1.N) (r : Fin 1000) : Fin 10000 :=
  ⟨1000 * t.val + r.val, by have : t.val < 10 := lt_of_lt_of_eq t.isLt (show cfg1.N = 10 from N_1); omega⟩

/-! The printed index maps, decided over the grids. -/
theorem idx0_0 : ∀ t : Fin cfg0.N, win0_0.index t (0 : Fin 2) = 0 ∧ win0_0.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_0 : ∀ t : Fin cfg1.N, win1_0.index t (0 : Fin 2) = t.val ∧ win1_0.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

section
variable (V : (c : Dev nD) → (b : Ref sig .tc) → Buf (Elt F) ((c : Thread nD τ).loc b))

/-! The first call's whole-array windows. -/
theorem iblk0_0_eq (c : Dev nD) (t : Fin cfg0.N) : iblk0 V c 0 t = V c main_v0 := by
  funext j
  show V c main_v0 (((cfg0.win 0).blk t).view.emb j) = V c main_v0 j
  refine congrArg _ (funext fun a => Fin.ext ?_)
  obtain ⟨e0, e1⟩ := idx0_0 t
  match a with
  | ⟨0, _⟩ => show win0_0.index t (0 : Fin 2) * 10000 + 1 * (j 0).val = (j 0).val; omega
  | ⟨1, _⟩ => show win0_0.index t (1 : Fin 2) * 128 + 1 * (j 1).val = (j 1).val; omega
theorem iblk0_2_eq (c : Dev nD) (t : Fin cfg0.N) : iblk0 V c 2 t = V c main_v1 := by
  funext j
  show V c main_v1 (((cfg0.win 2).blk t).view.emb j) = V c main_v1 j
  refine congrArg _ (funext fun a => Fin.ext ?_)
  obtain ⟨e0, e1⟩ := idx0_2 t
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem iblk0_3_eq (c : Dev nD) (t : Fin cfg0.N) : iblk0 V c 3 t = V c main_v2 := by
  funext j
  show V c main_v2 (((cfg0.win 3).blk t).view.emb j) = V c main_v2 j
  refine congrArg _ (funext fun a => Fin.ext ?_)
  obtain ⟨e0, e1⟩ := idx0_3 t
  match a with
  | ⟨0, _⟩ => show win0_3.index t (0 : Fin 2) * 1 + 1 * (j 0).val = (j 0).val; omega
  | ⟨1, _⟩ => show win0_3.index t (1 : Fin 2) * 128 + 1 * (j 1).val = (j 1).val; omega
theorem iblk0_4_eq (c : Dev nD) (t : Fin cfg0.N) : iblk0 V c 4 t = V c main_arg4 := by
  funext j
  show V c main_arg4 (((cfg0.win 4).blk t).view.emb j) = V c main_arg4 j
  refine congrArg _ (funext fun a => Fin.ext ?_)
  obtain ⟨e0, e1⟩ := idx0_4 t
  match a with
  | ⟨0, _⟩ => show win0_4.index t (0 : Fin 2) * 128 + 1 * (j 0).val = (j 0).val; omega
  | ⟨1, _⟩ => show win0_4.index t (1 : Fin 2) * 64 + 1 * (j 1).val = (j 1).val; omega
theorem iblk0_5_eq (c : Dev nD) (t : Fin cfg0.N) : iblk0 V c 5 t = V c main_arg6 := by
  funext j
  show V c main_arg6 (((cfg0.win 5).blk t).view.emb j) = V c main_arg6 j
  refine congrArg _ (funext fun a => Fin.ext ?_)
  obtain ⟨e0, e1⟩ := idx0_5 t
  match a with
  | ⟨0, _⟩ => show win0_5.index t (0 : Fin 2) * 128 + 1 * (j 0).val = (j 0).val; omega
  | ⟨1, _⟩ => show win0_5.index t (1 : Fin 2) * 16 + 1 * (j 1).val = (j 1).val; omega
theorem iblk0_6_eq (c : Dev nD) (t : Fin cfg0.N) : iblk0 V c 6 t = V c main_v3 := by
  funext j
  show V c main_v3 (((cfg0.win 6).blk t).view.emb j) = V c main_v3 j
  refine congrArg _ (funext fun a => Fin.ext ?_)
  obtain ⟨e0, e1⟩ := idx0_6 t
  match a with
  | ⟨0, _⟩ => show win0_6.index t (0 : Fin 2) * 1 + 1 * (j 0).val = (j 0).val; omega
  | ⟨1, _⟩ => show win0_6.index t (1 : Fin 2) * 16 + 1 * (j 1).val = (j 1).val; omega

/-- The adjacency block at point t. -/
theorem iblk0_1_apply (c : Dev nD) (t : Fin cfg0.N) (r : Fin 400) (n : Fin 10000) :
    iblk0 V c 1 t (ix2 r n) = V c main_arg1 (ix2 (rowAt0 t r) n) := by
  show V c main_arg1 (((cfg0.win 1).blk t).view.emb (ix2 r n)) = V c main_arg1 (ix2 (rowAt0 t r) n)
  refine congrArg _ (funext fun a => Fin.ext ?_)
  obtain ⟨e0, e1⟩ := idx0_1 t
  match a with
  | ⟨0, _⟩ => show win0_1.index t (0 : Fin 2) * 400 + 1 * r.val = 400 * t.val + r.val; omega
  | ⟨1, _⟩ => show win0_1.index t (1 : Fin 2) * 10000 + 1 * n.val = n.val; omega

/-! The second call's whole-array windows. -/
theorem iblk1_1_eq (c : Dev nD) (t : Fin cfg1.N) : iblk1 V c 1 t = V c main_v4_1 := by
  funext j
  show V c main_v4_1 (((cfg1.win 1).blk t).view.emb j) = V c main_v4_1 j
  refine congrArg _ (funext fun a => Fin.ext ?_)
  obtain ⟨e0, e1⟩ := idx1_1 t
  match a with
  | ⟨0, _⟩ => show win1_1.index t (0 : Fin 2) * 10000 + 1 * (j 0).val = (j 0).val; omega
  | ⟨1, _⟩ => show win1_1.index t (1 : Fin 2) * 64 + 1 * (j 1).val = (j 1).val; omega
theorem iblk1_2_eq (c : Dev nD) (t : Fin cfg1.N) : iblk1 V c 2 t = V c main_v5 := by
  funext j
  show V c main_v5 (((cfg1.win 2).blk t).view.emb j) = V c main_v5 j
  refine congrArg _ (funext fun a => Fin.ext ?_)
  obtain ⟨e0, e1⟩ := idx1_2 t
  match a with
  | ⟨0, _⟩ => show win1_2.index t (0 : Fin 2) * 1 + 1 * (j 0).val = (j 0).val; omega
  | ⟨1, _⟩ => show win1_2.index t (1 : Fin 2) * 64 + 1 * (j 1).val = (j 1).val; omega

/-- The adjacency copy's block at point t of the second call. -/
theorem iblk1_0_apply (c : Dev nD) (t : Fin cfg1.N) (r : Fin 1000) (n : Fin 10000) :
    iblk1 V c 0 t (ix2 r n) = V c main_v4_2 (ix2 (rowAt1 t r) n) := by
  show V c main_v4_2 (((cfg1.win 0).blk t).view.emb (ix2 r n)) = V c main_v4_2 (ix2 (rowAt1 t r) n)
  refine congrArg _ (funext fun a => Fin.ext ?_)
  obtain ⟨e0, e1⟩ := idx1_0 t
  match a with
  | ⟨0, _⟩ => show win1_0.index t (0 : Fin 2) * 1000 + 1 * r.val = 1000 * t.val + r.val; omega
  | ⟨1, _⟩ => show win1_0.index t (1 : Fin 2) * 10000 + 1 * n.val = n.val; omega

end

/-! An array read through an output window's block. -/
theorem blkread0_7 (G : (⟨2, ![10000, 16]⟩ : Shape).Idx → Elt F (cfg0.win 7).elt) (t : Fin cfg0.N) (r : Fin 400) (q : Fin 16) :
    ((cfg0.win 7).blk t).view.read (Elt F) G (ix2 r q) = G (ix2 (rowAt0 t r) q) := by
  show G (((cfg0.win 7).blk t).view.emb (ix2 r q)) = G (ix2 (rowAt0 t r) q)
  refine congrArg _ (funext fun a => Fin.ext ?_)
  obtain ⟨e0, e1⟩ := idx0_7 t
  match a with
  | ⟨0, _⟩ => show win0_7.index t (0 : Fin 2) * 400 + 1 * r.val = 400 * t.val + r.val; omega
  | ⟨1, _⟩ => show win0_7.index t (1 : Fin 2) * 16 + 1 * q.val = q.val; omega
theorem blkread0_8 (G : (⟨2, ![10000, 64]⟩ : Shape).Idx → Elt F (cfg0.win 8).elt) (t : Fin cfg0.N) (r : Fin 400) (q : Fin 64) :
    ((cfg0.win 8).blk t).view.read (Elt F) G (ix2 r q) = G (ix2 (rowAt0 t r) q) := by
  show G (((cfg0.win 8).blk t).view.emb (ix2 r q)) = G (ix2 (rowAt0 t r) q)
  refine congrArg _ (funext fun a => Fin.ext ?_)
  obtain ⟨e0, e1⟩ := idx0_8 t
  match a with
  | ⟨0, _⟩ => show win0_8.index t (0 : Fin 2) * 400 + 1 * r.val = 400 * t.val + r.val; omega
  | ⟨1, _⟩ => show win0_8.index t (1 : Fin 2) * 64 + 1 * q.val = q.val; omega
theorem blkread0_9 (G : (⟨2, ![10000, 10000]⟩ : Shape).Idx → Elt F (cfg0.win 9).elt) (t : Fin cfg0.N) (r : Fin 400) (q : Fin 10000) :
    ((cfg0.win 9).blk t).view.read (Elt F) G (ix2 r q) = G (ix2 (rowAt0 t r) q) := by
  show G (((cfg0.win 9).blk t).view.emb (ix2 r q)) = G (ix2 (rowAt0 t r) q)
  refine congrArg _ (funext fun a => Fin.ext ?_)
  obtain ⟨e0, e1⟩ := idx0_9 t
  match a with
  | ⟨0, _⟩ => show win0_9.index t (0 : Fin 2) * 400 + 1 * r.val = 400 * t.val + r.val; omega
  | ⟨1, _⟩ => show win0_9.index t (1 : Fin 2) * 10000 + 1 * q.val = q.val; omega
theorem blkread1_3 (G : (⟨2, ![10000, 64]⟩ : Shape).Idx → Elt F (cfg1.win 3).elt) (t : Fin cfg1.N) (r : Fin 1000) (q : Fin 64) :
    ((cfg1.win 3).blk t).view.read (Elt F) G (ix2 r q) = G (ix2 (rowAt1 t r) q) := by
  show G (((cfg1.win 3).blk t).view.emb (ix2 r q)) = G (ix2 (rowAt1 t r) q)
  refine congrArg _ (funext fun a => Fin.ext ?_)
  obtain ⟨e0, e1⟩ := idx1_3 t
  match a with
  | ⟨0, _⟩ => show win1_3.index t (0 : Fin 2) * 1000 + 1 * r.val = 1000 * t.val + r.val; omega
  | ⟨1, _⟩ => show win1_3.index t (1 : Fin 2) * 64 + 1 * q.val = q.val; omega

end Cert.KernelIdeal.Hand

end
-- ==== Proof.Spec.lean ====
/-
  The two-layer graph convolution with an encoder head, as functions on the extended reals.

  With x : [10000,128], adj : [10000,10000], W1 : [128,128], b1 : [128], W2 : [128,64], b2 : [64],
  We : [128,16], be : [16]:
    support1 = x · W1,
    hidden   = max (adj · support1 + b1) 0,
    y        = hidden · We + be                      (the encoder head, the second result),
    support2 = hidden · W2,
    z        = adj · support2 + b2,
    result   = log_softmax of z along each row: with m the row's maximum and zs = z − m,
               zs − log (Σ_c exp zs).
  Every entry is written out by its coordinates; every matrix product is the plain sum over the contracted
  coordinate.  The two float literals that occur (the zero of the rectifier and of the row sum, and −∞, the
  start of the row maximum) are kept as the words the programs carry.
-/
import Idealize.ShloMosaic.PureOps.Ideal
import Idealize.ShloMosaic.Lib.ValueIdx

noncomputable section

namespace Cert.Gcn

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vc (a : ℕ) : Type := (⟨1, ![a]⟩ : Shape).Idx → EReal

/-- The float zero both programs carry (the rectifier's threshold, the start of the row sum). -/
abbrev zeroW : EReal := Ideal.ofBits .f32 0x00000000#32
/-- The float −∞ both programs carry (the start of the row maximum). -/
abbrev negInfW : EReal := Ideal.ofBits .f32 0xFF800000#32

section
variable (x : Mat 10000 128) (adj : Mat 10000 10000) (W1 : Mat 128 128) (b1 : Vc 128) (W2 : Mat 128 64) (b2 : Vc 64)
  (We : Mat 128 16) (be : Vc 16)

/-- support1 = x · W1 at (n, h). -/
def support1At (n : Fin 10000) (h : Fin 128) : EReal := ∑ k : Fin 128, x (ix2 n k) * W1 (ix2 k h)

/-- hidden = max (adj · support1 + b1) 0 at (i, h). -/
def hiddenAt (i : Fin 10000) (h : Fin 128) : EReal :=
  max ((∑ n : Fin 10000, adj (ix2 i n) * support1At x W1 n h) + b1 (ix1 h)) zeroW

/-- The encoder head y = hidden · We + be at (i, s). -/
def headAt (i : Fin 10000) (s : Fin 16) : EReal :=
  (∑ h : Fin 128, hiddenAt x adj W1 b1 i h * We (ix2 h s)) + be (ix1 s)

/-- support2 = hidden · W2 at (n, c). -/
def support2At (n : Fin 10000) (c : Fin 64) : EReal := ∑ h : Fin 128, hiddenAt x adj W1 b1 n h * W2 (ix2 h c)

/-- z = adj · support2 + b2 at (i, c). -/
def logitAt (i : Fin 10000) (c : Fin 64) : EReal :=
  (∑ n : Fin 10000, adj (ix2 i n) * support2At x adj W1 b1 W2 n c) + b2 (ix1 c)

/-- The row maximum of z, folded from −∞. -/
def rowMaxAt (i : Fin 10000) : EReal :=
  (Finset.univ : Finset (Fin 64)).fold max negInfW fun c => logitAt x adj W1 b1 W2 b2 i c

/-- z shifted by its row maximum. -/
def shiftedAt (i : Fin 10000) (c : Fin 64) : EReal := logitAt x adj W1 b1 W2 b2 i c - rowMaxAt x adj W1 b1 W2 b2 i

/-- log_softmax of z along the row, at (i, c). -/
def logSoftmaxAt (i : Fin 10000) (c : Fin 64) : EReal :=
  shiftedAt x adj W1 b1 W2 b2 i c - Ideal.log (∑ c' : Fin 64, Ideal.exp (shiftedAt x adj W1 b1 W2 b2 i c'))

/-- The first result as one array: the log-softmax of the second layer. -/
def logSoftmaxArr : Mat 10000 64 := fun j => logSoftmaxAt x adj W1 b1 W2 b2 (j 0) (j 1)

/-- The second result as one array: the encoder head. -/
def headArr : Mat 10000 16 := fun j => headAt x adj W1 b1 We be (j 0) (j 1)

end

end Cert.Gcn

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.PayAt.lean ====
/-
  The kernels' payloads read at an index, at the ideal values: a float is an extended real, a format change and a cast
  to the same shape are the identity, a matrix product into a zero accumulator is the sum over the contracted
  coordinate, a row broadcast reads its one row, a lane reduction is the sum (or the fold of max) along the row.
-/
import proofs.«134555_g86887188398703_cont_sun_m_546_22_alg».proof.Proof.Gen.KernelIdeal.Skeleton
import proofs.«134555_g86887188398703_cont_sun_m_546_22_alg».proof.Proof.Spec
import proofs.«134555_g86887188398703_cont_sun_m_546_22_alg».proof.Proof.LibColumnForms
import proofs.«134555_g86887188398703_cont_sun_m_546_22_alg».proof.Proof.LibHostMaxForms
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Pay

open Cert.KernelIdeal Cert.KernelIdeal.Gen Idealize.ShloMosaic Idealize.ShloMosaic.ValueIdx Cert.Gcn

/-! ## The five matrix products -/

/-- The 10000×128 by 128×128 product: the operand indices at output index i and contraction index q. -/
theorem lhs_a_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_a_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_a_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_a_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- A matrix product into a zero accumulator, read at (r, c): the sum over the contracted coordinate. -/
theorem mm_a {φ₁ φ₂ : FTy} (x : FVec Ideal S10000x128 φ₁) (y : FVec Ideal S128x128 φ₂) (r : Fin 10000) (c : Fin 128) :
    matmul dot_S10000x128_S128x128_S10000x128_1_0_0_1_n_n none x y (constant (F := Ideal) S10000x128 .f32 0x00000000#32) (ix2 r c)
      = ∑ k : Fin 128, x (ix2 r k) * y (ix2 k c) := by
  refine (Ideal.matmul_constant_zero_apply dot_S10000x128_S128x128_S10000x128_1_0_0_1_n_n none x y (ix2 r c)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r c) ((ValueIdx.contrEquiv1 dot_S10000x128_S128x128_S10000x128_1_0_0_1_n_n 128 rfl rfl).symm k) = ix2 r k := funext fun a => Fin.ext (by
    match a with
    | ⟨0, _⟩ => exact lhs_a_0 _ _
    | ⟨1, _⟩ => exact (lhs_a_1 _ _).trans hk)
  have er : dot_S10000x128_S128x128_S10000x128_1_0_0_1_n_n.rhsIdx (ix2 r c) ((ValueIdx.contrEquiv1 dot_S10000x128_S128x128_S10000x128_1_0_0_1_n_n 128 rfl rfl).symm k) = ix2 k c := funext fun a => Fin.ext (by
    match a with
    | ⟨0, _⟩ => exact (rhs_a_0 _ _).trans hk
    | ⟨1, _⟩ => exact rhs_a_1 _ _)
  rw [el, er]

/-- The 400×10000 by 10000×128 product: the operand indices at output index i and contraction index q. -/
theorem lhs_b_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_b_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_b_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_b_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- A matrix product into a zero accumulator, read at (r, c): the sum over the contracted coordinate. -/
theorem mm_b {φ₁ φ₂ : FTy} (x : FVec Ideal S400x10000 φ₁) (y : FVec Ideal S10000x128 φ₂) (r : Fin 400) (c : Fin 128) :
    matmul dot_S400x10000_S10000x128_S400x128_1_0_0_1_n_n none x y (constant (F := Ideal) S400x128 .f32 0x00000000#32) (ix2 r c)
      = ∑ k : Fin 10000, x (ix2 r k) * y (ix2 k c) := by
  refine (Ideal.matmul_constant_zero_apply dot_S400x10000_S10000x128_S400x128_1_0_0_1_n_n none x y (ix2 r c)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r c) ((ValueIdx.contrEquiv1 dot_S400x10000_S10000x128_S400x128_1_0_0_1_n_n 10000 rfl rfl).symm k) = ix2 r k := funext fun a => Fin.ext (by
    match a with
    | ⟨0, _⟩ => exact lhs_b_0 _ _
    | ⟨1, _⟩ => exact (lhs_b_1 _ _).trans hk)
  have er : dot_S400x10000_S10000x128_S400x128_1_0_0_1_n_n.rhsIdx (ix2 r c) ((ValueIdx.contrEquiv1 dot_S400x10000_S10000x128_S400x128_1_0_0_1_n_n 10000 rfl rfl).symm k) = ix2 k c := funext fun a => Fin.ext (by
    match a with
    | ⟨0, _⟩ => exact (rhs_b_0 _ _).trans hk
    | ⟨1, _⟩ => exact rhs_b_1 _ _)
  rw [el, er]

/-- The 400×128 by 128×16 product: the operand indices at output index i and contraction index q. -/
theorem lhs_c_0 (i : S400x16.Idx) (q : dot_S400x128_S128x16_S400x16_1_0_0_1_n_n.contr.Idx) :
    (dot_S400x128_S128x16_S400x16_1_0_0_1_n_n.lhsIdx i q 0).val = (i 0).val := by
  unfold DotDims.lhsIdx
  rw [dif_neg (show ¬(0 : Fin S400x128.rank) ∈ dot_S400x128_S128x16_S400x16_1_0_0_1_n_n.lhsBatch by decide), dif_pos (show (0 : Fin S400x128.rank) ∈ dot_S400x128_S128x16_S400x16_1_0_0_1_n_n.lhsNonContracting by decide)]
  rfl
theorem lhs_c_1 (i : S400x16.Idx) (q : dot_S400x128_S128x16_S400x16_1_0_0_1_n_n.contr.Idx) :
    (dot_S400x128_S128x16_S400x16_1_0_0_1_n_n.lhsIdx i q 1).val = (q ⟨0, by decide⟩).val :=
  dot_S400x128_S128x16_S400x16_1_0_0_1_n_n.lhsIdx_val_of_single rfl i q
theorem rhs_c_0 (i : S400x16.Idx) (q : dot_S400x128_S128x16_S400x16_1_0_0_1_n_n.contr.Idx) :
    (dot_S400x128_S128x16_S400x16_1_0_0_1_n_n.rhsIdx i q 0).val = (q ⟨0, by decide⟩).val :=
  dot_S400x128_S128x16_S400x16_1_0_0_1_n_n.rhsIdx_val_of_single rfl i q
theorem rhs_c_1 (i : S400x16.Idx) (q : dot_S400x128_S128x16_S400x16_1_0_0_1_n_n.contr.Idx) :
    (dot_S400x128_S128x16_S400x16_1_0_0_1_n_n.rhsIdx i q 1).val = (i 1).val := by
  unfold DotDims.rhsIdx
  rw [dif_neg (show ¬(1 : Fin S128x16.rank) ∈ dot_S400x128_S128x16_S400x16_1_0_0_1_n_n.rhsBatch by decide), dif_pos (show (1 : Fin S128x16.rank) ∈ dot_S400x128_S128x16_S400x16_1_0_0_1_n_n.rhsNonContracting by decide)]
  rfl
/-- A matrix product into a zero accumulator, read at (r, c): the sum over the contracted coordinate. -/
theorem mm_c {φ₁ φ₂ : FTy} (x : FVec Ideal S400x128 φ₁) (y : FVec Ideal S128x16 φ₂) (r : Fin 400) (c : Fin 16) :
    matmul dot_S400x128_S128x16_S400x16_1_0_0_1_n_n none x y (constant (F := Ideal) S400x16 .f32 0x00000000#32) (ix2 r c)
      = ∑ k : Fin 128, x (ix2 r k) * y (ix2 k c) := by
  refine (Ideal.matmul_constant_zero_apply dot_S400x128_S128x16_S400x16_1_0_0_1_n_n none x y (ix2 r c)).trans ?_
  rw [← Equiv.sum_comp (ValueIdx.contrEquiv1 dot_S400x128_S128x16_S400x16_1_0_0_1_n_n 128 rfl rfl).symm]
  refine Finset.sum_congr rfl fun k _ => ?_
  have hk := ValueIdx.contrEquiv1_symm_val dot_S400x128_S128x16_S400x16_1_0_0_1_n_n 128 rfl rfl k
  have el : dot_S400x128_S128x16_S400x16_1_0_0_1_n_n.lhsIdx (ix2 r c) ((ValueIdx.contrEquiv1 dot_S400x128_S128x16_S400x16_1_0_0_1_n_n 128 rfl rfl).symm k) = ix2 r k := funext fun a => Fin.ext (by
    match a with
    | ⟨0, _⟩ => exact lhs_c_0 _ _
    | ⟨1, _⟩ => exact (lhs_c_1 _ _).trans hk)
  have er : dot_S400x128_S128x16_S400x16_1_0_0_1_n_n.rhsIdx (ix2 r c) ((ValueIdx.contrEquiv1 dot_S400x128_S128x16_S400x16_1_0_0_1_n_n 128 rfl rfl).symm k) = ix2 k c := funext fun a => Fin.ext (by
    match a with
    | ⟨0, _⟩ => exact (rhs_c_0 _ _).trans hk
    | ⟨1, _⟩ => exact rhs_c_1 _ _)
  rw [el, er]

/-- The 400×128 by 128×64 product: the operand indices at output index i and contraction index q. -/
theorem lhs_d_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem lhs_d_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
theorem rhs_d_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
theorem rhs_d_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl
/-- A matrix product into a zero accumulator, read at (r, c): the sum over the contracted coordinate. -/
theorem mm_d {φ₁ φ₂ : FTy} (x : FVec Ideal S400x128 φ₁) (y : FVec Ideal S128x64 φ₂) (r : Fin 400) (c : Fin 64) :
    matmul dot_S400x128_S128x64_S400x64_1_0_0_1_n_n none x y (constant (F := Ideal) S400x64 .f32 0x00000000#32) (ix2 r c)
      = ∑ k : Fin 128, x (ix2 r k) * y (ix2 k c) := by
  refine (Ideal.matmul_constant_zero_apply dot_S400x128_S128x64_S400x64_1_0_0_1_n_n none x y (ix2 r c)).trans ?_
  rw [← Equiv.sum_comp (ValueIdx.contrEquiv1 dot_S400x128_S128x64_S400x64_1_0_0_1_n_n 128 rfl rfl).symm]
  refine Finset.sum_congr rfl fun k _ => ?_
  have hk := ValueIdx.contrEquiv1_symm_val dot_S400x128_S128x64_S400x64_1_0_0_1_n_n 128 rfl rfl k
  have el : dot_S400x128_S128x64_S400x64_1_0_0_1_n_n.lhsIdx (ix2 r c) ((ValueIdx.contrEquiv1 dot_S400x128_S128x64_S400x64_1_0_0_1_n_n 128 rfl rfl).symm k) = ix2 r k := funext fun a => Fin.ext (by
    match a with
    | ⟨0, _⟩ => exact lhs_d_0 _ _
    | ⟨1, _⟩ => exact (lhs_d_1 _ _).trans hk)
  have er : dot_S400x128_S128x64_S400x64_1_0_0_1_n_n.rhsIdx (ix2 r c) ((ValueIdx.contrEquiv1 dot_S400x128_S128x64_S400x64_1_0_0_1_n_n 128 rfl rfl).symm k) = ix2 k c := funext fun a => Fin.ext (by
    match a with
    | ⟨0, _⟩ => exact (rhs_d_0 _ _).trans hk
    | ⟨1, _⟩ => exact rhs_d_1 _ _)
  rw [el, er]

/-- The 1000×10000 by 10000×64 product: the operand indices at output index i and contraction index q. -/
theorem lhs_e_0 (i : S1000x64.Idx) (q : dot_S1000x10000_S10000x64_S1000x64_1_0_0_1_n_n.contr.Idx) :
    (dot_S1000x10000_S10000x64_S1000x64_1_0_0_1_n_n.lhsIdx i q 0).val = (i 0).val := by
  unfold DotDims.lhsIdx
  rw [dif_neg (show ¬(0 : Fin S1000x10000.rank) ∈ dot_S1000x10000_S10000x64_S1000x64_1_0_0_1_n_n.lhsBatch by decide), dif_pos (show (0 : Fin S1000x10000.rank) ∈ dot_S1000x10000_S10000x64_S1000x64_1_0_0_1_n_n.lhsNonContracting by decide)]
  rfl
theorem lhs_e_1 (i : S1000x64.Idx) (q : dot_S1000x10000_S10000x64_S1000x64_1_0_0_1_n_n.contr.Idx) :
    (dot_S1000x10000_S10000x64_S1000x64_1_0_0_1_n_n.lhsIdx i q 1).val = (q ⟨0, by decide⟩).val :=
  dot_S1000x10000_S10000x64_S1000x64_1_0_0_1_n_n.lhsIdx_val_of_single rfl i q
theorem rhs_e_0 (i : S1000x64.Idx) (q : dot_S1000x10000_S10000x64_S1000x64_1_0_0_1_n_n.contr.Idx) :
    (dot_S1000x10000_S10000x64_S1000x64_1_0_0_1_n_n.rhsIdx i q 0).val = (q ⟨0, by decide⟩).val :=
  dot_S1000x10000_S10000x64_S1000x64_1_0_0_1_n_n.rhsIdx_val_of_single rfl i q
theorem rhs_e_1 (i : S1000x64.Idx) (q : dot_S1000x10000_S10000x64_S1000x64_1_0_0_1_n_n.contr.Idx) :
    (dot_S1000x10000_S10000x64_S1000x64_1_0_0_1_n_n.rhsIdx i q 1).val = (i 1).val := by
  unfold DotDims.rhsIdx
  rw [dif_neg (show ¬(1 : Fin S10000x64.rank) ∈ dot_S1000x10000_S10000x64_S1000x64_1_0_0_1_n_n.rhsBatch by decide), dif_pos (show (1 : Fin S10000x64.rank) ∈ dot_S1000x10000_S10000x64_S1000x64_1_0_0_1_n_n.rhsNonContracting by decide)]
  rfl
/-- A matrix product into a zero accumulator, read at (r, c): the sum over the contracted coordinate. -/
theorem mm_e {φ₁ φ₂ : FTy} (x : FVec Ideal S1000x10000 φ₁) (y : FVec Ideal S10000x64 φ₂) (r : Fin 1000) (c : Fin 64) :
    matmul dot_S1000x10000_S10000x64_S1000x64_1_0_0_1_n_n none x y (constant (F := Ideal) S1000x64 .f32 0x00000000#32) (ix2 r c)
      = ∑ k : Fin 10000, x (ix2 r k) * y (ix2 k c) := by
  refine (Ideal.matmul_constant_zero_apply dot_S1000x10000_S10000x64_S1000x64_1_0_0_1_n_n none x y (ix2 r c)).trans ?_
  rw [← Equiv.sum_comp (ValueIdx.contrEquiv1 dot_S1000x10000_S10000x64_S1000x64_1_0_0_1_n_n 10000 rfl rfl).symm]
  refine Finset.sum_congr rfl fun k _ => ?_
  have hk := ValueIdx.contrEquiv1_symm_val dot_S1000x10000_S10000x64_S1000x64_1_0_0_1_n_n 10000 rfl rfl k
  have el : dot_S1000x10000_S10000x64_S1000x64_1_0_0_1_n_n.lhsIdx (ix2 r c) ((ValueIdx.contrEquiv1 dot_S1000x10000_S10000x64_S1000x64_1_0_0_1_n_n 10000 rfl rfl).symm k) = ix2 r k := funext fun a => Fin.ext (by
    match a with
    | ⟨0, _⟩ => exact lhs_e_0 _ _
    | ⟨1, _⟩ => exact (lhs_e_1 _ _).trans hk)
  have er : dot_S1000x10000_S10000x64_S1000x64_1_0_0_1_n_n.rhsIdx (ix2 r c) ((ValueIdx.contrEquiv1 dot_S1000x10000_S10000x64_S1000x64_1_0_0_1_n_n 10000 rfl rfl).symm k) = ix2 k c := funext fun a => Fin.ext (by
    match a with
    | ⟨0, _⟩ => exact (rhs_e_0 _ _).trans hk
    | ⟨1, _⟩ => exact rhs_e_1 _ _)
  rw [el, er]

/-! ## The first kernel's payloads -/

/-- support = x · W at (n, h). -/
theorem pay1_at (v25 : Vec Ideal S10000x128 .bf16) (v27 : Vec Ideal S128x128 .bf16) (n : Fin 10000) (h : Fin 128) :
    k0_pay1 (F := Ideal) v25 v27 (ix2 n h) = ∑ k : Fin 128, v25 (ix2 n k) * v27 (ix2 k h) := by
  have e : k0_pay1 (F := Ideal) v25 v27
      = shapeCast S10000x128 (truncf .bf16 (matmul dot_S10000x128_S128x128_S10000x128_1_0_0_1_n_n none
          (shapeCast S10000x128 v25 shapeCasts_S10000x128_S10000x128) (shapeCast S128x128 v27 shapeCasts_S128x128_S128x128)
          (constant S10000x128 .f32 0x00000000#32)) bitsLt_bf16_f32) shapeCasts_S10000x128_S10000x128 := rfl
  rw [e, shapeCast_self, shapeCast_self, shapeCast_self]
  exact mm_a (φ₁ := .bf16) (φ₂ := .bf16) v25 v27 n h

/-- hidden = max (adj · support + b) 0 at (r, h). -/
theorem pay2_at (v3 : Vec Ideal S400x10000 .f32) (v4 : Vec Ideal S10000x128 .bf16) (v6 : Vec Ideal S1x128 .f32)
    (r : Fin 400) (h : Fin 128) :
    k0_pay2 (F := Ideal) v3 v4 v6 (ix2 r h)
      = max ((∑ n : Fin 10000, v3 (ix2 r n) * v4 (ix2 n h)) + v6 (ix2 (0 : Fin 1) h)) zeroW := by
  have e : k0_pay2 (F := Ideal) v3 v4 v6
      = maximumf (addf (matmul dot_S400x10000_S10000x128_S400x128_1_0_0_1_n_n none v3 v4 (constant S400x128 .f32 0x00000000#32))
          (broadcastTo S400x128 (shapeCast S1x128 v6 shapeCasts_S1x128_S1x128) broadcasts_S1x128_S400x128))
          (broadcast S400x128 (Scalar.ofBits .f32 0x00000000#32)) := rfl
  rw [e, shapeCast_self]
  exact congrArg₂ (fun a b : EReal => max (a + b) zeroW) (mm_b (φ₁ := .f32) (φ₂ := .bf16) v3 v4 r h)
    (broadcastTo_1b_ab_apply v6 broadcasts_S1x128_S400x128 r h)

/-- The head y = hidden · We + be at (r, s). -/
theorem pay3_at (v3 : Vec Ideal S400x10000 .f32) (v4 : Vec Ideal S10000x128 .bf16) (v6 : Vec Ideal S1x128 .f32)
    (v12 : Vec Ideal S128x16 .f32) (v14 : Vec Ideal S1x16 .f32) (r : Fin 400) (s : Fin 16) :
    k0_pay3 (F := Ideal) v3 v4 v6 v12 v14 (ix2 r s)
      = (∑ h : Fin 128, k0_pay2 (F := Ideal) v3 v4 v6 (ix2 r h) * v12 (ix2 h s)) + v14 (ix2 (0 : Fin 1) s) := by
  have e : k0_pay3 (F := Ideal) v3 v4 v6 v12 v14
      = addf (matmul dot_S400x128_S128x16_S400x16_1_0_0_1_n_n none (k0_pay2 (F := Ideal) v3 v4 v6) v12 (constant S400x16 .f32 0x00000000#32))
          (broadcastTo S400x16 (shapeCast S1x16 v14 shapeCasts_S1x16_S1x16) broadcasts_S1x16_S400x16) := rfl
  rw [e, shapeCast_self]
  exact congrArg₂ (fun a b : EReal => a + b) (mm_c (φ₁ := .f32) (φ₂ := .f32) (k0_pay2 (F := Ideal) v3 v4 v6) v12 r s)
    (broadcastTo_1b_ab_apply v14 broadcasts_S1x16_S400x16 r s)

/-- support2 = hidden · W2 at (r, c). -/
theorem pay4_at (v3 : Vec Ideal S400x10000 .f32) (v4 : Vec Ideal S10000x128 .bf16) (v6 : Vec Ideal S1x128 .f32)
    (v19 : Vec Ideal S128x64 .f32) (r : Fin 400) (c : Fin 64) :
    k0_pay4 (F := Ideal) v3 v4 v6 v19 (ix2 r c)
      = ∑ h : Fin 128, k0_pay2 (F := Ideal) v3 v4 v6 (ix2 r h) * v19 (ix2 h c) :=
  mm_d (φ₁ := .f32) (φ₂ := .f32) (k0_pay2 (F := Ideal) v3 v4 v6) v19 r c

/-- The adjacency block passes through its format change unchanged. -/
theorem pay5_eq (v3 : Vec Ideal S400x10000 .f32) : k0_pay5 (F := Ideal) v3 = v3 := rfl

/-! ## The second kernel's payload: the row-wise log-softmax of the logits block -/

/-- The logits block z = adj · support2 + b2 at (r, c). -/
def zBlk (v0 : Vec Ideal S1000x10000 .bf16) (v2 : Vec Ideal S10000x64 .bf16) (v5 : Vec Ideal S1x64 .f32)
    (r : Fin 1000) (c : Fin 64) : EReal :=
  (∑ n : Fin 10000, v0 (ix2 r n) * v2 (ix2 n c)) + v5 (ix2 (0 : Fin 1) c)

/-- The row maximum of the logits block, folded from −∞. -/
def mxBlk (v0 : Vec Ideal S1000x10000 .bf16) (v2 : Vec Ideal S10000x64 .bf16) (v5 : Vec Ideal S1x64 .f32)
    (r : Fin 1000) : EReal :=
  (Finset.univ : Finset (Fin 64)).fold max negInfW fun c => zBlk v0 v2 v5 r c

/-- The product plus the broadcast row, at (r, c), is the logit. -/
theorem z_at (v0 : Vec Ideal S1000x10000 .bf16) (v2 : Vec Ideal S10000x64 .bf16) (v5 : Vec Ideal S1x64 .f32)
    (r : Fin 1000) (c : Fin 64) :
    addf (matmul (φ₁ := .bf16) (φ₂ := .bf16) dot_S1000x10000_S10000x64_S1000x64_1_0_0_1_n_n none v0 v2 (constant (F := Ideal) S1000x64 .f32 0x00000000#32))
        (broadcastTo S1000x64 v5 broadcasts_S1x64_S1000x64) (ix2 r c) = zBlk v0 v2 v5 r c :=
  congrArg₂ (fun a b : EReal => a + b) (mm_e (φ₁ := .bf16) (φ₂ := .bf16) v0 v2 r c)
    (broadcastTo_1b_ab_apply v5 broadcasts_S1x64_S1000x64 r c)

/-- A row's maximum: the fold of max from −∞ along the row. -/
theorem rowMax_at (x : FVec Ideal S1000x64 .f32) (r : Fin 1000) :
    multiReduction .maximumf [1] S1000 x 0xFF800000#32 reduces_S1000x64_S1000 (.inl rfl) rfl (ix1 r)
      = (Finset.univ : Finset (Fin 64)).fold max negInfW fun c => x (ix2 r c) := by
  refine (Ideal.multiReduction_maximumf_single x _ reduces_S1000x64_S1000 (.inl rfl) rfl (ix1 r)).trans ?_
  exact congrArg (fun f : Fin 64 → EReal => (Finset.univ : Finset (Fin 64)).fold max negInfW f)
    (funext fun k => congrArg x (lift2_last reduces_S1000x64_S1000 r k))

/-- A row's sum: the plain sum along the row. -/
theorem rowSum_at (x : FVec Ideal S1000x64 .f32) (r : Fin 1000) :
    multiReduction .add [1] S1000 x 0x00000000#32 reduces_S1000x64_S1000 (.inl rfl) rfl (ix1 r)
      = ∑ c : Fin 64, x (ix2 r c) := by
  refine (Ideal.multiReduction_add_single x _ reduces_S1000x64_S1000 (.inl rfl) rfl (ix1 r)).trans ?_
  exact Finset.sum_congr rfl fun k _ => congrArg x (lift2_last reduces_S1000x64_S1000 r k)

/-- A per-row vector, as a column broadcast over the lanes, reads its row's entry. -/
theorem col_at (y : FVec Ideal S1000 .f32) (r : Fin 1000) (c : Fin 64) :
    broadcastTo S1000x64 (shapeCast S1000x1 y shapeCasts_S1000_S1000x1) broadcasts_S1000x1_S1000x64 (ix2 r c) = y (ix1 r) :=
  (ValueLayout.broadcastTo_a1_ab_apply _ broadcasts_S1000x1_S1000x64 r c).trans
    (ValueLayout.shapeCast_a_a1_apply y shapeCasts_S1000_S1000x1 r (0 : Fin 1))

/-- The same with the logarithm taken on the column. -/
theorem colLog_at (y : FVec Ideal S1000 .f32) (r : Fin 1000) (c : Fin 64) :
    broadcastTo S1000x64 (log (shapeCast S1000x1 y shapeCasts_S1000_S1000x1)) broadcasts_S1000x1_S1000x64 (ix2 r c)
      = Ideal.log (y (ix1 r)) :=
  (ValueLayout.broadcastTo_a1_ab_apply _ broadcasts_S1000x1_S1000x64 r c).trans
    (congrArg Ideal.log (ValueLayout.shapeCast_a_a1_apply y shapeCasts_S1000_S1000x1 r (0 : Fin 1)))

/-- A block shifted by its row maxima. -/
def shiftV (x : FVec Ideal S1000x64 .f32) : FVec Ideal S1000x64 .f32 :=
  subf x (broadcastTo S1000x64 (shapeCast S1000x1
    (multiReduction .maximumf [1] S1000 x 0xFF800000#32 reduces_S1000x64_S1000 (.inl rfl) rfl) shapeCasts_S1000_S1000x1)
    broadcasts_S1000x1_S1000x64)

theorem shiftV_at (x : FVec Ideal S1000x64 .f32) (z : Fin 64 → EReal) (r : Fin 1000) (hz : ∀ c, x (ix2 r c) = z c)
    (c : Fin 64) : shiftV x (ix2 r c) = z c - (Finset.univ : Finset (Fin 64)).fold max negInfW z := by
  have hm : broadcastTo S1000x64 (shapeCast S1000x1
      (multiReduction .maximumf [1] S1000 x 0xFF800000#32 reduces_S1000x64_S1000 (.inl rfl) rfl) shapeCasts_S1000_S1000x1)
      broadcasts_S1000x1_S1000x64 (ix2 r c) = (Finset.univ : Finset (Fin 64)).fold max negInfW z :=
    ((col_at _ r c).trans (rowMax_at x r)).trans
      (congrArg (fun f : Fin 64 → EReal => (Finset.univ : Finset (Fin 64)).fold max negInfW f) (funext hz))
  exact congrArg₂ (fun a b : EReal => a - b) (hz c) hm

/-- The shifted block less the logarithm of its rows' exponential sums. -/
def lsmV (x : FVec Ideal S1000x64 .f32) : FVec Ideal S1000x64 .f32 :=
  subf (shiftV x) (broadcastTo S1000x64 (log (shapeCast S1000x1
    (multiReduction .add [1] S1000 (exp (shiftV x)) 0x00000000#32 reduces_S1000x64_S1000 (.inl rfl) rfl) shapeCasts_S1000_S1000x1))
    broadcasts_S1000x1_S1000x64)

theorem lsmV_at (x : FVec Ideal S1000x64 .f32) (z : Fin 64 → EReal) (r : Fin 1000) (hz : ∀ c, x (ix2 r c) = z c)
    (c : Fin 64) :
    lsmV x (ix2 r c) = (z c - (Finset.univ : Finset (Fin 64)).fold max negInfW z)
      - Ideal.log (∑ c' : Fin 64, Ideal.exp (z c' - (Finset.univ : Finset (Fin 64)).fold max negInfW z)) := by
  have hs : multiReduction .add [1] S1000 (exp (shiftV x)) 0x00000000#32 reduces_S1000x64_S1000 (.inl rfl) rfl (ix1 r)
      = ∑ c' : Fin 64, Ideal.exp (z c' - (Finset.univ : Finset (Fin 64)).fold max negInfW z) :=
    (rowSum_at (exp (shiftV x)) r).trans
      (Finset.sum_congr rfl fun c' _ => congrArg Ideal.exp (shiftV_at x z r hz c'))
  exact congrArg₂ (fun a b : EReal => a - b) (shiftV_at x z r hz c)
    ((colLog_at _ r c).trans (congrArg Ideal.log hs))

/-- log_softmax of the logits block along the row, at (r, c). -/
theorem pay1_1_at (v0 : Vec Ideal S1000x10000 .bf16) (v2 : Vec Ideal S10000x64 .bf16) (v5 : Vec Ideal S1x64 .f32)
    (r : Fin 1000) (c : Fin 64) :
    k1_pay1 (F := Ideal) v0 v2 v5 (ix2 r c)
      = (zBlk v0 v2 v5 r c - mxBlk v0 v2 v5 r)
        - Ideal.log (∑ c' : Fin 64, Ideal.exp (zBlk v0 v2 v5 r c' - mxBlk v0 v2 v5 r)) := by
  have e : k1_pay1 (F := Ideal) v0 v2 v5
      = lsmV (addf (matmul dot_S1000x10000_S10000x64_S1000x64_1_0_0_1_n_n none
          (shapeCast S1000x10000 v0 shapeCasts_S1000x10000_S1000x10000) (shapeCast S10000x64 v2 shapeCasts_S10000x64_S10000x64)
          (constant S1000x64 .f32 0x00000000#32))
          (broadcastTo S1000x64 (shapeCast S1x64 v5 shapeCasts_S1x64_S1x64) broadcasts_S1x64_S1000x64)) := rfl
  rw [e, shapeCast_self, shapeCast_self, shapeCast_self]
  exact lsmV_at _ (zBlk v0 v2 v5 r) r (fun c' => z_at v0 v2 v5 r c') c

end Cert.Gcn.Pay

end
-- ==== Proof.BlockSpec.lean ====
/-
  The stored blocks are blocks of the specification.

  Suppose the loaded blocks are what they should be: the adjacency block holds rows R(r) of the adjacency, the
  scratch holds support1, the bias rows hold the biases, the weights are the weights.  Then every stored value, at
  a coordinate (r, ·) of its block, is the specification's value at row R(r): the scratch is support1, the head's
  block is the head, the support's block is support2, and the second call's block is the log-softmax.  Both sides
  are the same sums, products, maxima, exponentials and logarithms of the same entries.
-/
import proofs.«134555_g86887188398703_cont_sun_m_546_22_alg».proof.Proof.PayAt
import proofs.«134555_g86887188398703_cont_sun_m_546_22_alg».proof.Proof.Spec

noncomputable section

namespace Cert.Gcn.Blk

open Cert.KernelIdeal Cert.KernelIdeal.Gen Idealize.ShloMosaic Idealize.ShloMosaic.ValueIdx Cert.Gcn Cert.Gcn.Pay

variable (x : Mat 10000 128) (adj : Mat 10000 10000) (W1 : Mat 128 128) (b1 : Vc 128) (W2 : Mat 128 64) (b2 : Vc 64)
  (We : Mat 128 16) (be : Vc 16)

/-- The scratch is support1. -/
theorem scratch_at (v25 : Vec Ideal S10000x128 .bf16) (v27 : Vec Ideal S128x128 .bf16)
    (h25 : ∀ n k, v25 (ix2 n k) = x (ix2 n k)) (h27 : ∀ k h, v27 (ix2 k h) = W1 (ix2 k h)) (n : Fin 10000) (h : Fin 128) :
    k0_pay1 (F := Ideal) v25 v27 (ix2 n h) = support1At x W1 n h := by
  rw [pay1_at]; unfold support1At
  exact Finset.sum_congr rfl fun k _ => by rw [h25, h27]

/-- The rectified hidden block is rows R(r) of the hidden layer. -/
theorem hidden_at (v3 : Vec Ideal S400x10000 .f32) (v4 : Vec Ideal S10000x128 .bf16) (v6 : Vec Ideal S1x128 .f32)
    (R : Fin 400 → Fin 10000) (h3 : ∀ r n, v3 (ix2 r n) = adj (ix2 (R r) n))
    (h4 : ∀ n h, v4 (ix2 n h) = support1At x W1 n h) (h6 : ∀ h, v6 (ix2 (0 : Fin 1) h) = b1 (ix1 h)) (r : Fin 400) (h : Fin 128) :
    k0_pay2 (F := Ideal) v3 v4 v6 (ix2 r h) = hiddenAt x adj W1 b1 (R r) h := by
  rw [pay2_at]; unfold hiddenAt
  rw [h6]
  exact congrArg (fun s => max (s + b1 (ix1 h)) zeroW) (Finset.sum_congr rfl fun n _ => by rw [h3, h4])

/-- The head's block is rows R(r) of the head. -/
theorem head_at (v3 : Vec Ideal S400x10000 .f32) (v4 : Vec Ideal S10000x128 .bf16) (v6 : Vec Ideal S1x128 .f32)
    (v12 : Vec Ideal S128x16 .f32) (v14 : Vec Ideal S1x16 .f32)
    (R : Fin 400 → Fin 10000) (h3 : ∀ r n, v3 (ix2 r n) = adj (ix2 (R r) n))
    (h4 : ∀ n h, v4 (ix2 n h) = support1At x W1 n h) (h6 : ∀ h, v6 (ix2 (0 : Fin 1) h) = b1 (ix1 h))
    (h12 : ∀ h s, v12 (ix2 h s) = We (ix2 h s)) (h14 : ∀ s, v14 (ix2 (0 : Fin 1) s) = be (ix1 s)) (r : Fin 400) (s : Fin 16) :
    k0_pay3 (F := Ideal) v3 v4 v6 v12 v14 (ix2 r s) = headAt x adj W1 b1 We be (R r) s := by
  rw [pay3_at]; unfold headAt
  rw [h14]
  exact congrArg (fun t => t + be (ix1 s)) (Finset.sum_congr rfl fun h _ => by
    rw [hidden_at x adj W1 b1 v3 v4 v6 R h3 h4 h6, h12])

/-- The support's block is rows R(r) of support2. -/
theorem support2_at (v3 : Vec Ideal S400x10000 .f32) (v4 : Vec Ideal S10000x128 .bf16) (v6 : Vec Ideal S1x128 .f32)
    (v19 : Vec Ideal S128x64 .f32)
    (R : Fin 400 → Fin 10000) (h3 : ∀ r n, v3 (ix2 r n) = adj (ix2 (R r) n))
    (h4 : ∀ n h, v4 (ix2 n h) = support1At x W1 n h) (h6 : ∀ h, v6 (ix2 (0 : Fin 1) h) = b1 (ix1 h))
    (h19 : ∀ h c, v19 (ix2 h c) = W2 (ix2 h c)) (r : Fin 400) (c : Fin 64) :
    k0_pay4 (F := Ideal) v3 v4 v6 v19 (ix2 r c) = support2At x adj W1 b1 W2 (R r) c := by
  rw [pay4_at]; unfold support2At
  exact Finset.sum_congr rfl fun h _ => by
    rw [hidden_at x adj W1 b1 v3 v4 v6 R h3 h4 h6, h19]

/-- The second call's block is rows R(r) of the log-softmax. -/
theorem logSoftmax_at (v0 : Vec Ideal S1000x10000 .bf16) (v2 : Vec Ideal S10000x64 .bf16) (v5 : Vec Ideal S1x64 .f32)
    (R : Fin 1000 → Fin 10000) (h0 : ∀ r n, v0 (ix2 r n) = adj (ix2 (R r) n))
    (h2 : ∀ n c, v2 (ix2 n c) = support2At x adj W1 b1 W2 n c) (h5 : ∀ c, v5 (ix2 (0 : Fin 1) c) = b2 (ix1 c))
    (r : Fin 1000) (c : Fin 64) :
    k1_pay1 (F := Ideal) v0 v2 v5 (ix2 r c) = logSoftmaxAt x adj W1 b1 W2 b2 (R r) c := by
  have hz : ∀ c', zBlk v0 v2 v5 r c' = logitAt x adj W1 b1 W2 b2 (R r) c' := fun c' => by
    unfold zBlk logitAt
    rw [h5]
    exact congrArg (fun t => t + b2 (ix1 c')) (Finset.sum_congr rfl fun n _ => by rw [h0, h2])
  have hm : mxBlk v0 v2 v5 r = rowMaxAt x adj W1 b1 W2 b2 (R r) := by
    unfold mxBlk rowMaxAt
    exact congrArg (fun f : Fin 64 → EReal => (Finset.univ : Finset (Fin 64)).fold max negInfW f) (funext hz)
  rw [pay1_1_at]; unfold logSoftmaxAt shiftedAt
  rw [hz, hm]
  exact congrArg (fun t => logitAt x adj W1 b1 W2 b2 (R r) c - rowMaxAt x adj W1 b1 W2 b2 (R r) - Ideal.log t)
    (Finset.sum_congr rfl fun c' _ => by rw [hz])

end Cert.Gcn.Blk

end
-- ==== Proof.KI.Value0.lean ====
/-
  The first pallas_call's three result arrays, at the ideal instance, as whole arrays.

  What point t writes back is block t — rows 400·t … 400·t + 399 — of one function of the arguments: the encoder
  head, the second-layer support, and the adjacency itself (its bf16 copy is the identity here).  The twenty-five
  blocks cover the 10000 rows, so after the run each array is that function.
-/
import proofs.«134555_g86887188398703_cont_sun_m_546_22_alg».proof.Proof.KI.HostVals
import proofs.«134555_g86887188398703_cont_sun_m_546_22_alg».proof.Proof.KI.Pieces0
import proofs.«134555_g86887188398703_cont_sun_m_546_22_alg».proof.Proof.KI.Blocks
import proofs.«134555_g86887188398703_cont_sun_m_546_22_alg».proof.Proof.BlockSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gcn

variable (m : (ℓ : Loc nD τ sig) → Buf (Elt Ideal) ℓ) (ρ : Dev nD → PrngReg)

/-- From the first point on the scratch holds support1 = x · W1. -/
theorem scr0_at (c : Dev nD) (n : Fin 10000) (h : Fin 128) :
    (scr0 (VV1 m ρ) c (ix2 n h) : EReal) = support1At (m ((c : Thread nD τ).loc main_arg0)) (m ((c : Thread nD τ).loc main_arg2)) n h := by
  unfold scr0
  rw [out0_A_S_eq]
  exact (fun n h => Cert.Gcn.Blk.scratch_at (m ((c : Thread nD τ).loc main_arg0)) (m ((c : Thread nD τ).loc main_arg2)) (iblk0 (VV1 m ρ) c 0 t00) (iblk0 (VV1 m ρ) c 2 t00)
        (fun n k => (congrFun (iblk0_0_eq (VV1 m ρ) c t00) _).trans (VV1_v0_at m ρ c n k))
        (fun k h => (congrFun (iblk0_2_eq (VV1 m ρ) c t00) _).trans (VV1_v1_at m ρ c k h)) n h) n h

/-! ## The second-layer support's array (window 8) -/

/-- The support as one array. -/
def support2Arr (c : Dev nD) : Mat 10000 64 := fun j =>
  support2At (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

theorem flushed0_8_eq (c : Dev nD) (t : Fin cfg0.N) :
    (dat0 (VV1 m ρ) c).flushed 8 t = ((cfg0.win 8).blk t).view.read (Elt Ideal) (support2Arr m c) := by
  show (cfg0.win 8).cut (grid0.coords t) ((dat0 (VV1 m ρ) c).after 8 t) = _
  rw [after0_8]
  funext j
  obtain ⟨r, q, rfl⟩ : ∃ (r : Fin 400) (q : Fin 64), j = ix2 r q := ⟨j 0, j 1, eq_ix2 j⟩
  rw [blkread0_8]
  show (outs0 (VV1 m ρ) c t).2.1 (ix2 r q) = support2At _ _ _ _ _ (rowAt0 t r) q
  by_cases hz : t.val = 0
  · rw [outs0_A (VV1 m ρ) c t hz]
    dsimp only
    rw [out0_A_8_eq]
    exact Cert.Gcn.Blk.support2_at (m ((c : Thread nD τ).loc main_arg0)) (m ((c : Thread nD τ).loc main_arg1)) (m ((c : Thread nD τ).loc main_arg2)) (m ((c : Thread nD τ).loc main_arg3)) (m ((c : Thread nD τ).loc main_arg4)) _ _ _ _ (rowAt0 t)
      (fun r n => (iblk0_1_apply (VV1 m ρ) c t r n).trans (congrFun (VV1_arg1 m ρ c) _))
      (fun n h => Cert.Gcn.Blk.scratch_at (m ((c : Thread nD τ).loc main_arg0)) (m ((c : Thread nD τ).loc main_arg2)) (iblk0 (VV1 m ρ) c 0 t) (iblk0 (VV1 m ρ) c 2 t)
        (fun n k => (congrFun (iblk0_0_eq (VV1 m ρ) c t) _).trans (VV1_v0_at m ρ c n k))
        (fun k h => (congrFun (iblk0_2_eq (VV1 m ρ) c t) _).trans (VV1_v1_at m ρ c k h)) n h)
      (fun h => (congrFun (iblk0_3_eq (VV1 m ρ) c t) _).trans (VV1_v2_at m ρ c h))
      (fun h q => (congrFun (iblk0_4_eq (VV1 m ρ) c t) _).trans (congrFun (VV1_arg4 m ρ c) _)) r q
  · rw [outs0_B (VV1 m ρ) c t hz]
    dsimp only
    rw [out0_B_8_eq]
    exact Cert.Gcn.Blk.support2_at (m ((c : Thread nD τ).loc main_arg0)) (m ((c : Thread nD τ).loc main_arg1)) (m ((c : Thread nD τ).loc main_arg2)) (m ((c : Thread nD τ).loc main_arg3)) (m ((c : Thread nD τ).loc main_arg4)) _ _ _ _ (rowAt0 t)
      (fun r n => (iblk0_1_apply (VV1 m ρ) c t r n).trans (congrFun (VV1_arg1 m ρ c) _))
      (fun n h => scr0_at m ρ c n h)
      (fun h => (congrFun (iblk0_3_eq (VV1 m ρ) c t) _).trans (VV1_v2_at m ρ c h))
      (fun h q => (congrFun (iblk0_4_eq (VV1 m ρ) c t) _).trans (congrFun (VV1_arg4 m ρ c) _)) r q

/-! ## The encoder head's array (window 7) -/

theorem flushed0_7_eq (c : Dev nD) (t : Fin cfg0.N) :
    (dat0 (VV1 m ρ) c).flushed 7 t = ((cfg0.win 7).blk t).view.read (Elt Ideal)
      (headArr (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) := by
  show (cfg0.win 7).cut (grid0.coords t) ((dat0 (VV1 m ρ) c).after 7 t) = _
  rw [after0_7]
  funext j
  obtain ⟨r, s, rfl⟩ : ∃ (r : Fin 400) (s : Fin 16), j = ix2 r s := ⟨j 0, j 1, eq_ix2 j⟩
  rw [blkread0_7]
  show (outs0 (VV1 m ρ) c t).1 (ix2 r s) = headAt _ _ _ _ _ _ (rowAt0 t r) s
  by_cases hz : t.val = 0
  · rw [outs0_A (VV1 m ρ) c t hz]
    dsimp only
    rw [out0_A_7_eq]
    exact Cert.Gcn.Blk.head_at (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) _ _ _ _ _ (rowAt0 t)
      (fun r n => (iblk0_1_apply (VV1 m ρ) c t r n).trans (congrFun (VV1_arg1 m ρ c) _))
      (fun n h => Cert.Gcn.Blk.scratch_at (m ((c : Thread nD τ).loc main_arg0)) (m ((c : Thread nD τ).loc main_arg2)) (iblk0 (VV1 m ρ) c 0 t) (iblk0 (VV1 m ρ) c 2 t)
        (fun n k => (congrFun (iblk0_0_eq (VV1 m ρ) c t) _).trans (VV1_v0_at m ρ c n k))
        (fun k h => (congrFun (iblk0_2_eq (VV1 m ρ) c t) _).trans (VV1_v1_at m ρ c k h)) n h)
      (fun h => (congrFun (iblk0_3_eq (VV1 m ρ) c t) _).trans (VV1_v2_at m ρ c h))
      (fun h s => (congrFun (iblk0_5_eq (VV1 m ρ) c t) _).trans (congrFun (VV1_arg6 m ρ c) _))
      (fun s => (congrFun (iblk0_6_eq (VV1 m ρ) c t) _).trans (VV1_v3_at m ρ c s)) r s
  · rw [outs0_B (VV1 m ρ) c t hz]
    dsimp only
    rw [out0_B_7_eq]
    exact Cert.Gcn.Blk.head_at (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) _ _ _ _ _ (rowAt0 t)
      (fun r n => (iblk0_1_apply (VV1 m ρ) c t r n).trans (congrFun (VV1_arg1 m ρ c) _))
      (fun n h => scr0_at m ρ c n h)
      (fun h => (congrFun (iblk0_3_eq (VV1 m ρ) c t) _).trans (VV1_v2_at m ρ c h))
      (fun h s => (congrFun (iblk0_5_eq (VV1 m ρ) c t) _).trans (congrFun (VV1_arg6 m ρ c) _))
      (fun s => (congrFun (iblk0_6_eq (VV1 m ρ) c t) _).trans (VV1_v3_at m ρ c s)) r s

/-! ## The adjacency copy's array (window 9) -/

theorem flushed0_9_eq (c : Dev nD) (t : Fin cfg0.N) :
    (dat0 (VV1 m ρ) c).flushed 9 t = ((cfg0.win 9).blk t).view.read (Elt Ideal) (fun j => (m ((c : Thread nD τ).loc main_arg1) j : EReal)) := by
  show (cfg0.win 9).cut (grid0.coords t) ((dat0 (VV1 m ρ) c).after 9 t) = _
  rw [after0_9]
  funext j
  obtain ⟨r, n, rfl⟩ : ∃ (r : Fin 400) (n : Fin 10000), j = ix2 r n := ⟨j 0, j 1, eq_ix2 j⟩
  rw [blkread0_9]
  show (outs0 (VV1 m ρ) c t).2.2 (ix2 r n) = m ((c : Thread nD τ).loc main_arg1) (ix2 (rowAt0 t r) n)
  by_cases hz : t.val = 0
  · rw [outs0_A (VV1 m ρ) c t hz]
    dsimp only
    rw [out0_A_9_eq, Cert.Gcn.Pay.pay5_eq]
    exact (iblk0_1_apply (VV1 m ρ) c t r n).trans (congrFun (VV1_arg1 m ρ c) _)
  · rw [outs0_B (VV1 m ρ) c t hz]
    dsimp only
    rw [out0_B_9_eq, Cert.Gcn.Pay.pay5_eq]
    exact (iblk0_1_apply (VV1 m ρ) c t r n).trans (congrFun (VV1_arg1 m ρ c) _)

/-! ## The blocks cover the arrays -/

theorem mem_blk0_7 (t : Fin cfg0.N) (i : S10000x16.Idx) :
    i ∈ ((cfg0.win 7).blk t).view.set ↔ ∀ a : Fin 2, win0_7.index t a * S400x16.size a ≤ (i a).val ∧ (i a).val < win0_7.index t a * S400x16.size a + S400x16.size a := by
  show i ∈ ((View.whole main_v4_0).slice (win0_7.rect t)).set ↔ _
  rw [View.set_slice_whole, Rect.mem_set_unit]
  exact Iff.rfl
theorem mem_blk0_8 (t : Fin cfg0.N) (i : S10000x64.Idx) :
    i ∈ ((cfg0.win 8).blk t).view.set ↔ ∀ a : Fin 2, win0_8.index t a * S400x64.size a ≤ (i a).val ∧ (i a).val < win0_8.index t a * S400x64.size a + S400x64.size a := by
  show i ∈ ((View.whole main_v4_1).slice (win0_8.rect t)).set ↔ _
  rw [View.set_slice_whole, Rect.mem_set_unit]
  exact Iff.rfl
theorem mem_blk0_9 (t : Fin cfg0.N) (i : S10000x10000.Idx) :
    i ∈ ((cfg0.win 9).blk t).view.set ↔ ∀ a : Fin 2, win0_9.index t a * S400x10000.size a ≤ (i a).val ∧ (i a).val < win0_9.index t a * S400x10000.size a + S400x10000.size a := by
  show i ∈ ((View.whole main_v4_2).slice (win0_9.rect t)).set ↔ _
  rw [View.set_slice_whole, Rect.mem_set_unit]
  exact Iff.rfl

/-- The point whose block holds row `i`. -/
def ptOf0 (i : ℕ) (hi : i < 10000) : Fin cfg0.N := ⟨i / 400, by rw [show cfg0.N = 25 from N_0]; omega⟩

theorem cover0_7 (i : S10000x16.Idx) : ∃ t : Fin cfg0.N, (cfg0.win 7).flush t = true ∧ i ∈ ((cfg0.win 7).blk t).view.set := by
  have hi0 : (i 0).val < 10000 := (i 0).isLt
  have hi1 : (i 1).val < 16 := (i 1).isLt
  refine ⟨ptOf0 (i 0).val hi0, flush0_7 _, ?_⟩
  rw [mem_blk0_7]
  obtain ⟨e0, e1⟩ := idx0_7 (ptOf0 (i 0).val hi0)
  have ev : (ptOf0 (i 0).val hi0).val = (i 0).val / 400 := rfl
  intro a
  match a with
  | ⟨0, _⟩ => show win0_7.index (ptOf0 (i 0).val hi0) (0 : Fin 2) * 400 ≤ (i 0).val ∧ (i 0).val < win0_7.index (ptOf0 (i 0).val hi0) (0 : Fin 2) * 400 + 400; omega
  | ⟨1, _⟩ => show win0_7.index (ptOf0 (i 0).val hi0) (1 : Fin 2) * 16 ≤ (i 1).val ∧ (i 1).val < win0_7.index (ptOf0 (i 0).val hi0) (1 : Fin 2) * 16 + 16; omega

theorem cover0_8 (i : S10000x64.Idx) : ∃ t : Fin cfg0.N, (cfg0.win 8).flush t = true ∧ i ∈ ((cfg0.win 8).blk t).view.set := by
  have hi0 : (i 0).val < 10000 := (i 0).isLt
  have hi1 : (i 1).val < 64 := (i 1).isLt
  refine ⟨ptOf0 (i 0).val hi0, flush0_8 _, ?_⟩
  rw [mem_blk0_8]
  obtain ⟨e0, e1⟩ := idx0_8 (ptOf0 (i 0).val hi0)
  have ev : (ptOf0 (i 0).val hi0).val = (i 0).val / 400 := rfl
  intro a
  match a with
  | ⟨0, _⟩ => show win0_8.index (ptOf0 (i 0).val hi0) (0 : Fin 2) * 400 ≤ (i 0).val ∧ (i 0).val < win0_8.index (ptOf0 (i 0).val hi0) (0 : Fin 2) * 400 + 400; omega
  | ⟨1, _⟩ => show win0_8.index (ptOf0 (i 0).val hi0) (1 : Fin 2) * 64 ≤ (i 1).val ∧ (i 1).val < win0_8.index (ptOf0 (i 0).val hi0) (1 : Fin 2) * 64 + 64; omega

theorem cover0_9 (i : S10000x10000.Idx) : ∃ t : Fin cfg0.N, (cfg0.win 9).flush t = true ∧ i ∈ ((cfg0.win 9).blk t).view.set := by
  have hi0 : (i 0).val < 10000 := (i 0).isLt
  have hi1 : (i 1).val < 10000 := (i 1).isLt
  refine ⟨ptOf0 (i 0).val hi0, flush0_9 _, ?_⟩
  rw [mem_blk0_9]
  obtain ⟨e0, e1⟩ := idx0_9 (ptOf0 (i 0).val hi0)
  have ev : (ptOf0 (i 0).val hi0).val = (i 0).val / 400 := rfl
  intro a
  match a with
  | ⟨0, _⟩ => show win0_9.index (ptOf0 (i 0).val hi0) (0 : Fin 2) * 400 ≤ (i 0).val ∧ (i 0).val < win0_9.index (ptOf0 (i 0).val hi0) (0 : Fin 2) * 400 + 400; omega
  | ⟨1, _⟩ => show win0_9.index (ptOf0 (i 0).val hi0) (1 : Fin 2) * 10000 ≤ (i 1).val ∧ (i 1).val < win0_9.index (ptOf0 (i 0).val hi0) (1 : Fin 2) * 10000 + 10000; omega

/-! ## The arrays after the run -/

/-- The encoder head's array after the run. -/
theorem final0_7 (c : Dev nD) : (dat0 (VV1 m ρ) c).arrAt 7 cfg0.N
    = headArr (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (dat0 (VV1 m ρ) c).arrAt_eq_of_cover 7 _ (fun t _ => flushed0_7_eq m ρ c t) cover0_7

/-- The support's array after the run. -/
theorem final0_8 (c : Dev nD) : (dat0 (VV1 m ρ) c).arrAt 8 cfg0.N = support2Arr m c :=
  (dat0 (VV1 m ρ) c).arrAt_eq_of_cover 8 _ (fun t _ => flushed0_8_eq m ρ c t) cover0_8

/-- The adjacency copy's array after the run: the adjacency. -/
theorem final0_9 (c : Dev nD) : (dat0 (VV1 m ρ) c).arrAt 9 cfg0.N = fun j => (m ((c : Thread nD τ).loc main_arg1) j : EReal) :=
  (dat0 (VV1 m ρ) c).arrAt_eq_of_cover 9 _ (fun t _ => flushed0_9_eq m ρ c t) cover0_9

end Cert.KernelIdeal.Hand

end
-- ==== Proof.KI.Value1.lean ====
/-
  The second pallas_call's result array, at the ideal instance, as a whole array.

  The call finds the adjacency (the first call's copy) and the second-layer support in its two array operands and
  b2 in its row operand.  What point t writes back is block t — rows 1000·t … 1000·t + 999 — of the log-softmax of
  adj · support2 + b2; the ten blocks cover the 10000 rows.
-/
import proofs.«134555_g86887188398703_cont_sun_m_546_22_alg».proof.Proof.KI.Value0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Gcn

variable (m : (ℓ : Loc nD τ sig) → Buf (Elt Ideal) ℓ) (ρ : Dev nD → PrngReg)

theorem flushed1_3_eq (c : Dev nD) (t : Fin cfg1.N) :
    (dat1 (VV3 m ρ) c).flushed 3 t = ((cfg1.win 3).blk t).view.read (Elt Ideal) (logSoftmaxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg1.win 3).cut (grid1.coords t) ((dat1 (VV3 m ρ) c).after 3 t) = _
  rw [after1_3]
  unfold out1_3 r1_out r1_adj r1_s2 r1_b2
  rw [View.canon_unit_zero hz2]
  simp only [View.ld_unit_zero (S := S1000x10000) hz2, View.ld_unit_zero (S := S10000x64) hz2, View.ld_unit_zero (S := S1x64) hz2]
  funext j
  obtain ⟨r, q, rfl⟩ : ∃ (r : Fin 1000) (q : Fin 64), j = ix2 r q := ⟨j 0, j 1, eq_ix2 j⟩
  rw [blkread1_3]
  show k1_pay1 (F := Ideal) (iblk1 (VV3 m ρ) c 0 t) (iblk1 (VV3 m ρ) c 1 t) (iblk1 (VV3 m ρ) c 2 t) (ix2 r q) = logSoftmaxAt _ _ _ _ _ _ (rowAt1 t r) q
  exact Cert.Gcn.Blk.logSoftmax_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ (rowAt1 t)
    (fun r n => (iblk1_0_apply (VV3 m ρ) c t r n).trans ((congrFun (VV3_v4_2 m ρ c) _).trans (congrFun (final0_9 m ρ c) _)))
    (fun n q => (congrFun (iblk1_1_eq (VV3 m ρ) c t) _).trans ((congrFun (VV3_v4_1 m ρ c) _).trans (congrFun (final0_8 m ρ c) _)))
    (fun q => (congrFun (iblk1_2_eq (VV3 m ρ) c t) _).trans (VV3_v5_at m ρ c q)) r q

theorem mem_blk1_3 (t : Fin cfg1.N) (i : S10000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v6).slice (win1_3.rect t)).set ↔ _
  rw [View.set_slice_whole, Rect.mem_set_unit]
  exact Iff.rfl

/-- The point of the second grid whose block holds row `i`. -/
def ptOf1 (i : ℕ) (hi : i < 10000) : Fin cfg1.N := ⟨i / 1000, by rw [show cfg1.N = 10 from N_1]; omega⟩

theorem cover1_3' (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  refine ⟨ptOf1 (i 0).val hi0, flush1_3 _, ?_⟩
  rw [mem_blk1_3]
  obtain ⟨e0, e1⟩ := idx1_3 (ptOf1 (i 0).val hi0)
  have ev : (ptOf1 (i 0).val hi0).val = (i 0).val / 1000 := rfl
  intro a
  match a with
  | ⟨0, _⟩ => show win1_3.index (ptOf1 (i 0).val hi0) (0 : Fin 2) * 1000 ≤ (i 0).val ∧ (i 0).val < win1_3.index (ptOf1 (i 0).val hi0) (0 : Fin 2) * 1000 + 1000; omega
  | ⟨1, _⟩ => show win1_3.index (ptOf1 (i 0).val hi0) (1 : Fin 2) * 64 ≤ (i 1).val ∧ (i 1).val < win1_3.index (ptOf1 (i 0).val hi0) (1 : Fin 2) * 64 + 64; omega

/-- The log-softmax's array after the run. -/
theorem final1_3 (c : Dev nD) : (dat1 (VV3 m ρ) c).arrAt 3 cfg1.N = logSoftmaxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dat1 (VV3 m ρ) c).arrAt_eq_of_cover 3 _ (fun t _ => flushed1_3_eq m ρ c t) cover1_3'

end Cert.KernelIdeal.Hand

end
-- ==== Proof.RefIsSpec.lean ====
/-
  The reference program's two results, read at the ideal instance (floats are extended reals), are the
  specification's functions.  Each stage of the reference is read at an index written by its coordinates and
  identified with the specification's entry of the same name: x · W1, the rectified first layer, the encoder
  head, hidden · W2, adj · support2 + b2, the row maximum, and the log-softmax.
-/
import proofs.«134555_g86887188398703_cont_sun_m_546_22_alg».proof.Proof.RefReadP
import proofs.«134555_g86887188398703_cont_sun_m_546_22_alg».proof.Proof.Spec
import proofs.«134555_g86887188398703_cont_sun_m_546_22_alg».proof.Proof.LibHostMaxForms

noncomputable section

namespace Cert.Gcn.Ref

open Cert.ReferenceIdeal Cert.ReferenceIdeal.ReadP Idealize.ShloMosaic Idealize.ShloMosaic.ValueIdx

section
variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S128x16, .f32⟩ : BufTy).Contents (Elt Ideal)) (x7 : (⟨S16, .f32⟩ : BufTy).Contents (Elt Ideal))

/-- x · W1 at (n, h). -/
theorem v0_at (n : Fin 10000) (h : Fin 128) :
    val_main_v0 (F := Ideal) x0 x2 (ix2 n h) = support1At x0 x2 n h := by
  rw [val_main_v0_apply]
  unfold Cert.Gcn.support1At
  refine Finset.sum_congr rfl fun k _ => ?_
  rw [show lidx_main_v0 (ix2 n h) k = ix2 n k from
        funext fun a => Fin.ext (by match a with | ⟨0, _⟩ => rfl | ⟨1, _⟩ => rfl),
      show ridx_main_v0 (ix2 n h) k = ix2 k h from
        funext fun a => Fin.ext (by match a with | ⟨0, _⟩ => rfl | ⟨1, _⟩ => rfl)]

/-- The rectified first layer at (i, h). -/
theorem v5_at (i : Fin 10000) (h : Fin 128) :
    val_main_v5 (F := Ideal) x0 x1 x2 x3 (ix2 i h) = hiddenAt x0 x1 x2 x3 i h := by
  rw [val_main_v5_apply, val_main_v4_apply, val_main_v1_apply, val_main_v3_apply, val_main_v2_apply,
    val_main_call0_v0_apply, val_main_call0_cst_apply]
  simp only [Ideal.maximumf_def, Ideal.addf_def, Ideal.ofBits_def]
  unfold Cert.Gcn.hiddenAt
  refine congrArg₂ max (congrArg₂ (· + ·) (Finset.sum_congr rfl fun n _ => ?_) ?_) rfl
  · rw [show lidx_main_v1 (ix2 i h) n = ix2 i n from
          funext fun a => Fin.ext (by match a with | ⟨0, _⟩ => rfl | ⟨1, _⟩ => rfl),
        show ridx_main_v1 (ix2 i h) n = ix2 n h from
          funext fun a => Fin.ext (by match a with | ⟨0, _⟩ => rfl | ⟨1, _⟩ => rfl), v0_at]
  · exact congrArg x3 (funext fun a => Fin.ext (by match a with | ⟨0, _⟩ => rfl))

/-- The encoder head at (i, s). -/
theorem v14_at (i : Fin 10000) (s : Fin 16) :
    val_main_v14 (F := Ideal) x0 x1 x2 x3 x6 x7 (ix2 i s) = headAt x0 x1 x2 x3 x6 x7 i s := by
  rw [val_main_v14_apply, val_main_v11_apply, val_main_v13_apply, val_main_v12_apply]
  simp only [Ideal.addf_def]
  unfold Cert.Gcn.headAt
  refine congrArg₂ (· + ·) (Finset.sum_congr rfl fun h _ => ?_) ?_
  · rw [show lidx_main_v11 (ix2 i s) h = ix2 i h from
          funext fun a => Fin.ext (by match a with | ⟨0, _⟩ => rfl | ⟨1, _⟩ => rfl),
        show ridx_main_v11 (ix2 i s) h = ix2 h s from
          funext fun a => Fin.ext (by match a with | ⟨0, _⟩ => rfl | ⟨1, _⟩ => rfl), v5_at]
  · exact congrArg x7 (funext fun a => Fin.ext (by match a with | ⟨0, _⟩ => rfl))

/-- hidden · W2 at (n, c). -/
theorem v6_at (n : Fin 10000) (c : Fin 64) :
    val_main_v6 (F := Ideal) x0 x1 x2 x3 x4 (ix2 n c) = support2At x0 x1 x2 x3 x4 n c := by
  rw [val_main_v6_apply]
  unfold Cert.Gcn.support2At
  refine Finset.sum_congr rfl fun h _ => ?_
  rw [show lidx_main_v6 (ix2 n c) h = ix2 n h from
        funext fun a => Fin.ext (by match a with | ⟨0, _⟩ => rfl | ⟨1, _⟩ => rfl),
      show ridx_main_v6 (ix2 n c) h = ix2 h c from
        funext fun a => Fin.ext (by match a with | ⟨0, _⟩ => rfl | ⟨1, _⟩ => rfl), v5_at]

/-- adj · support2 + b2 at (i, c). -/
theorem v10_at (i : Fin 10000) (c : Fin 64) :
    val_main_v10 (F := Ideal) x0 x1 x2 x3 x4 x5 (ix2 i c) = logitAt x0 x1 x2 x3 x4 x5 i c := by
  rw [val_main_v10_apply, val_main_v7_apply, val_main_v9_apply, val_main_v8_apply]
  simp only [Ideal.addf_def]
  unfold Cert.Gcn.logitAt
  refine congrArg₂ (· + ·) (Finset.sum_congr rfl fun n _ => ?_) ?_
  · rw [show lidx_main_v7 (ix2 i c) n = ix2 i n from
          funext fun a => Fin.ext (by match a with | ⟨0, _⟩ => rfl | ⟨1, _⟩ => rfl),
        show ridx_main_v7 (ix2 i c) n = ix2 n c from
          funext fun a => Fin.ext (by match a with | ⟨0, _⟩ => rfl | ⟨1, _⟩ => rfl), v6_at]
  · exact congrArg x5 (funext fun a => Fin.ext (by match a with | ⟨0, _⟩ => rfl))

/-- The word of −∞ denotes the least extended real. -/
theorem negInfW_eq_bot : negInfW = ⊥ := by simp [Ideal.ofBits, Ideal.ieee]

/-- The row maximum at i: the reference's further maximum against −∞ changes nothing. -/
theorem call1_v2_at (i : Fin 10000) :
    val_main_call1_v2 (F := Ideal) x0 x1 x2 x3 x4 x5 (ix1 i) = rowMaxAt x0 x1 x2 x3 x4 x5 i := by
  have hr : val_main_call1_v0 (F := Ideal) x0 x1 x2 x3 x4 x5 (ix1 i) = rowMaxAt x0 x1 x2 x3 x4 x5 i := by
    unfold val_main_call1_v0 Cert.Gcn.rowMaxAt
    refine (hostReduceMax2_last (A := 10000) (B := 64) _ _ _ (by decide) _ i).trans ?_
    exact congrArg (fun f : Fin 64 → EReal => (Finset.univ : Finset (Fin 64)).fold max negInfW f)
      (funext fun c => v10_at x0 x1 x2 x3 x4 x5 i c)
  rw [val_main_call1_v2_apply, val_main_call1_v1_apply, val_main_call1_cst_0_apply, hr]
  simp only [Ideal.maximumf_def, Ideal.ofBits_def]
  rw [show Ideal.ofBits .f32 0xFF800000#32 = (⊥ : EReal) from negInfW_eq_bot]
  exact max_eq_right bot_le

/-- z shifted by its row maximum at (i, c). -/
theorem call1_v5_at (i : Fin 10000) (c : Fin 64) :
    val_main_call1_v5 (F := Ideal) x0 x1 x2 x3 x4 x5 (ix2 i c) = shiftedAt x0 x1 x2 x3 x4 x5 i c := by
  rw [val_main_call1_v5_apply, val_main_call1_v4_apply, val_main_call1_v3_apply, v10_at,
    show idx_main_call1_v3 (idx_main_call1_v4 (ix2 i c)) = ix1 i from
      funext fun a => Fin.ext (by match a with | ⟨0, _⟩ => rfl), call1_v2_at]
  rfl

/-- The log-softmax at (i, c): the row sum starts from the zero word, which adds nothing. -/
theorem v15_at (i : Fin 10000) (c : Fin 64) :
    val_main_v15 (F := Ideal) x0 x1 x2 x3 x4 x5 (ix2 i c) = logSoftmaxAt x0 x1 x2 x3 x4 x5 i c := by
  rw [val_main_v15_apply, call1_v5_at, val_main_call1_v10_apply, val_main_call1_v9_apply, val_main_call1_v8_apply,
    show idx_main_call1_v8 (idx_main_call1_v10 (ix2 i c)) = ix1 i from
      funext fun a => Fin.ext (by match a with | ⟨0, _⟩ => rfl), val_main_call1_v7_apply, val_main_call1_cst_1_apply]
  simp only [Ideal.subf_def, Ideal.hostUnary_log_def, Ideal.ofBits_def, Ideal.ofBits_zero_f32, zero_add]
  unfold Cert.Gcn.logSoftmaxAt
  refine congrArg (fun t => shiftedAt x0 x1 x2 x3 x4 x5 i c - Ideal.log t) (Finset.sum_congr rfl fun c' _ => ?_)
  rw [show idx_main_call1_v7 (ix1 i) c' = ix2 i c' from
        funext fun a => Fin.ext (by match a with | ⟨0, _⟩ => rfl | ⟨1, _⟩ => rfl), val_main_call1_v6_apply, call1_v5_at]
  rfl

end

/-- The first result of the reference is the specification's log-softmax array. -/
theorem logSoftmax_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v15 (F := Ideal) x0 x1 x2 x3 x4 x5 = Cert.Gcn.logSoftmaxArr x0 x1 x2 x3 x4 x5 := by
  funext j
  obtain ⟨i, c, rfl⟩ : ∃ (i : Fin 10000) (c : Fin 64), j = ix2 i c := ⟨j 0, j 1, eq_ix2 j⟩
  exact v15_at x0 x1 x2 x3 x4 x5 i c

/-- The second result of the reference is the specification's encoder-head array. -/
theorem head_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x6 : (⟨S128x16, .f32⟩ : BufTy).Contents (Elt Ideal)) (x7 : (⟨S16, .f32⟩ : BufTy).Contents (Elt Ideal)) :
    val_main_v14 (F := Ideal) x0 x1 x2 x3 x6 x7 = Cert.Gcn.headArr x0 x1 x2 x3 x6 x7 := by
  funext j
  obtain ⟨i, s, rfl⟩ : ∃ (i : Fin 10000) (s : Fin 16), j = ix2 i s := ⟨j 0, j 1, eq_ix2 j⟩
  exact v14_at x0 x1 x2 x3 x6 x7 i s

end Cert.Gcn.Ref

end
-- ==== Proof.lean ====
/-
  The certificate: a two-layer graph convolution with an encoder head, computed by two Pallas calls, against its
  jnp reference.

  The kernel's first call streams the adjacency in 25 row blocks of 400: at the first block it fills a scratch
  with support1 = x · W1; at every block it forms hidden = max (adj_block · support1 + b1) 0 and writes the
  encoder head hidden · We + be, the second-layer support hidden · W2, and a copy of the adjacency block.  The
  second call streams that copy in 10 row blocks of 1000 and writes the log-softmax of adj_block · support2 + b2
  along each row.  The reference computes the same quantities on whole arrays.

  Frames: each program terminates without a fault and leaves its arguments unchanged — for the two kernel
  programs from the run of @main as host stretches and the two calls (the first call's invariant holds the scratch
  at support1 from the second point on); for the reference from its run as a list of host operations.
  The idealization changed nothing, so there is nothing to preserve.
  Equivalence at the ideal instance: the kernel's result arrays are, block by block, the specification's
  log-softmax and head (every format change is the identity, every matrix product the plain sum over the contracted
  coordinate, the blocks cover the rows); the reference's results are the same two functions, read operation by
  operation.  No law beyond the definitions is used, so the precondition is not needed.
-/
import proofs.«134555_g86887188398703_cont_sun_m_546_22_alg».proof.Defs
import proofs.«134555_g86887188398703_cont_sun_m_546_22_alg».proof.Proof.Gen.Kernel
import proofs.«134555_g86887188398703_cont_sun_m_546_22_alg».proof.Proof.Gen.KernelIdeal
import proofs.«134555_g86887188398703_cont_sun_m_546_22_alg».proof.Proof.Gen.ReferenceIdeal
import proofs.«134555_g86887188398703_cont_sun_m_546_22_alg».proof.Proof.Gen.Pre_finite_inputs
import proofs.«134555_g86887188398703_cont_sun_m_546_22_alg».proof.Proof.K.Run
import proofs.«134555_g86887188398703_cont_sun_m_546_22_alg».proof.Proof.KI.Value1
import proofs.«134555_g86887188398703_cont_sun_m_546_22_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- At the ideal instance both programs end with the specification's log-softmax and encoder head of arguments that
    agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Gcn.logSoftmaxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.headArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.final1_3 m ρ c), (h c).2.1.trans (Cert.KernelIdeal.Hand.final0_7 m ρ c), (h c).2.2⟩)
      (Cert.KernelIdeal.Hand.run_results m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.ReferenceIdeal.ReadP.val_main_v15_eq, Cert.Gcn.Ref.logSoftmax_eq, (hagree c).1, (hagree c).2.1, (hagree c).2.2.1,
        (hagree c).2.2.2.1, (hagree c).2.2.2.2.1, (hagree c).2.2.2.2.2.1]
    · rw [Cert.ReferenceIdeal.ReadP.val_main_v14_eq, Cert.Gcn.Ref.head_eq, (hagree c).1, (hagree c).2.1, (hagree c).2.2.1,
        (hagree c).2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
